-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128x64 .f32) (main_arg13 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x64 .f32) (main_arg7 : FVec F S64 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x64 .f32) (main_arg7 : FVec F S64 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1x128 : Shape := ⟨2, ![1, 128]⟩
abbrev S1x64 : Shape := ⟨2, ![1, 64]⟩
abbrev S10000x64 : Shape := ⟨2, ![10000, 64]⟩
abbrev S10000x128 : Shape := ⟨2, ![10000, 128]⟩
abbrev S_ : Shape := ⟨0, ![]⟩
abbrev S1600000x1 : Shape := ⟨2, ![1600000, 1]⟩
abbrev S1600000x64 : Shape := ⟨2, ![1600000, 64]⟩

abbrev nBuf : Space → Nat
  | .hbm => 45
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S64x128, .bf16⟩
  | .hbm, ⟨19, _⟩ => ⟨S128x128, .bf16⟩
  | .hbm, ⟨20, _⟩ => ⟨S128x64, .bf16⟩
  | .hbm, ⟨21, _⟩ => ⟨S1x128, .f32⟩
  | .hbm, ⟨22, _⟩ => ⟨S1x128, .f32⟩
  | .hbm, ⟨23, _⟩ => ⟨S1x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S128x128, .bf16⟩
  | .hbm, ⟨39, _⟩ => ⟨S128x128, .bf16⟩
  | .hbm, ⟨40, _⟩ => ⟨S128x64, .bf16⟩
  | .hbm, ⟨41, _⟩ => ⟨S1x128, .f32⟩
  | .hbm, ⟨42, _⟩ => ⟨S1x128, .f32⟩
  | .hbm, ⟨43, _⟩ => ⟨S1x64, .f32⟩
  | .hbm, ⟨44, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x64, .bf16⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S128_S1x128 : S128.ShapeCasts S1x128
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S10000x64_S10000x64 : S10000x64.ShapeCasts S10000x64
  concatenates_S10000x64_S10000x64_S10000x128_d1 : Shape.Concatenates [S10000x64, S10000x64] S10000x128 1
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S100000x64.size a
  hwx1_8 : ∀ i : grid1.Coords, EltTy.bits .f32 = 32 ∨ (Rect.block (s := S100000x64) S10000x64.size (cc1_transform_8 i) (hinb1_8 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x128 : Shape := ⟨2, ![1, 128]⟩
abbrev S1x64 : Shape := ⟨2, ![1, 64]⟩
abbrev S100000x128 : Shape := ⟨2, ![100000, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x128, .f32⟩
  | .hbm, ⟨28, _⟩ => ⟨S1x128, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S1x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S1600000x64, .f32⟩
  | .hbm, ⟨42, _⟩ => ⟨S1x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_cst : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call3_cst : Ref sig .tc := ⟨.hbm, 61, rfl⟩
abbrev main_call3_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x64_S64x128_S1600000x128_1_0_0_1_n_n_wf : DotDims.WF S1600000x64 S64x128 S1600000x128 [1] [0] [0] [1] [] []
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its RESULT named. The program is two pipelined regions among two stretches
  of host operations. Every weakly fair execution terminates, nothing faulting, and in every final state
  * the result array is what the second region's write-backs leave: the fold of its ten blocks over the array it found,
    `(dat1 (V3 m ρ) c).arrAt 8 cfg1.N`, where `V3` is the memory the second region is entered from (the first region's
    exit contents pushed through the host operations between the regions);
  * every argument array is as launched.
  The run itself is the segment run of the frame certificate; the only difference is what is read off the last
  thread state: beside the arguments, the one buffer the second region's output window writes.
-/
import proofs.«107831_j33019708572043_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second region's output window (window 8). -/
theorem result_ref : Pipeline.arrRef spec1 (8 : Fin cfg1.W) = main_v27 := rfl

set_option backward.isDefEq.respectTransparency.types false in
/-- The run, with the result array named and the arguments unchanged. -/
theorem run : θ_run defs (onTc (τ := τ) (main (F := F))) ⟨m, fun _ => 0, ρ⟩ (fun r => ∀ c : Dev nD,
      r.2.mem ((c.tc : Thread nD τ).loc main_v27) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v27 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.RunValue

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibMlp3Rows.lean ====
/-
  A THREE-layer perceptron with a ReLU after each of the first two layers, read entry by entry on the extended reals,
  in the two spellings a program can give it, generic in the row count `R` and the widths `I`, `H`, `K`, `O`:
  * `mlp3Row`: one entry of `relu (relu (row · w1 + b1) · w2 + b2) · w3 + b3`, the weights and biases given by their
    coordinates;
  * `kernel_mlp3_apply`: the vector-unit spelling — the rows rounded to bfloat16 (the identity on the extended reals),
    each weight already a bfloat16 matrix passed through an identity shape cast, each bias ONE ROW `[1, n]` passed
    through an identity shape cast and repeated down the rows, each matrix product accumulated into a zero splat, the
    ReLU the maximum with a scalar zero splat — is `mlp3Row` of the row;
  * `host_mlp3_apply`: the host spelling — `dot_general`s, each bias a vector `[n]` broadcast to one row and then down
    the rows, the ReLU the maximum with a broadcast scalar zero — is the same `mlp3Row`.
  No finiteness is needed anywhere: both spellings are the same sums of the same products, term by term.
-/
import proofs.«107831_j33019708572043_2_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp3

open Idealize.ShloMosaic Idealize.ShloMosaic.ValueIdx
open scoped BigOperators

/-- One entry of `relu (relu (row · w1 + b1) · w2 + b2) · w3 + b3` on the extended reals: the first hidden unit `h` is
    the row's product with column `h` of `w1` plus `b1 h`, floored at `z`; the second hidden unit `k` is the first hidden
    row's product with column `k` of `w2` plus `b2 k`, floored at `z`; the entry is the second hidden row's product with
    column `q` of `w3` plus `b3 q`. -/
def mlp3Row {I H K O : ℕ} (z : EReal) (row : Fin I → EReal) (w1 : Fin I → Fin H → EReal) (b1 : Fin H → EReal)
    (w2 : Fin H → Fin K → EReal) (b2 : Fin K → EReal) (w3 : Fin K → Fin O → EReal) (b3 : Fin O → EReal) (q : Fin O) : EReal :=
  (∑ k : Fin K, max ((∑ h : Fin H, max ((∑ j : Fin I, row j * w1 j h) + b1 h) z * w2 h k) + b2 k) z * w3 k q) + b3 q

/-- The kernel body's arithmetic at an entry: the three matrix products into a zero accumulator are plain sums, the
    roundings to bfloat16 and the identity shape casts change nothing on the extended reals, each bias is one row
    repeated down the rows, and each ReLU is the maximum with the zero splat. -/
theorem kernel_mlp3_apply {R I H K O : ℕ}
    (d1 : DotDims ⟨2, ![R, I]⟩ ⟨2, ![I, H]⟩ ⟨2, ![R, H]⟩) (hd1 : d1 = DotDims.plain R I H)
    (d2 : DotDims ⟨2, ![R, H]⟩ ⟨2, ![H, K]⟩ ⟨2, ![R, K]⟩) (hd2 : d2 = DotDims.plain R H K)
    (d3 : DotDims ⟨2, ![R, K]⟩ ⟨2, ![K, O]⟩ ⟨2, ![R, O]⟩) (hd3 : d3 = DotDims.plain R K O)
    (x : FVec Ideal ⟨2, ![R, I]⟩ .f32)
    (w1 : FVec Ideal ⟨2, ![I, H]⟩ .bf16) (b1 : FVec Ideal ⟨2, ![1, H]⟩ .f32)
    (w2 : FVec Ideal ⟨2, ![H, K]⟩ .bf16) (b2 : FVec Ideal ⟨2, ![1, K]⟩ .f32)
    (w3 : FVec Ideal ⟨2, ![K, O]⟩ .bf16) (b3 : FVec Ideal ⟨2, ![1, O]⟩ .f32)
    (hw1 : (⟨2, ![I, H]⟩ : Shape).ShapeCasts ⟨2, ![I, H]⟩) (hb1 : (⟨2, ![1, H]⟩ : Shape).ShapeCasts ⟨2, ![1, H]⟩)
    (hB1 : (⟨2, ![1, H]⟩ : Shape).Broadcasts ⟨2, ![R, H]⟩)
    (hw2 : (⟨2, ![H, K]⟩ : Shape).ShapeCasts ⟨2, ![H, K]⟩) (hb2 : (⟨2, ![1, K]⟩ : Shape).ShapeCasts ⟨2, ![1, K]⟩)
    (hB2 : (⟨2, ![1, K]⟩ : Shape).Broadcasts ⟨2, ![R, K]⟩)
    (hw3 : (⟨2, ![K, O]⟩ : Shape).ShapeCasts ⟨2, ![K, O]⟩) (hb3 : (⟨2, ![1, O]⟩ : Shape).ShapeCasts ⟨2, ![1, O]⟩)
    (hB3 : (⟨2, ![1, O]⟩ : Shape).Broadcasts ⟨2, ![R, O]⟩)
    (ht : FTy.bf16.bits < FTy.f32.bits) (p : Fin R) (q : Fin O) :
    addf (matmul d3 none (truncf .bf16 (maximumf (addf (matmul d2 none (truncf .bf16 (maximumf (addf (matmul d1 none (truncf .bf16 x ht) (shapeCast ⟨2, ![I, H]⟩ w1 hw1) (constant ⟨2, ![R, H]⟩ .f32 0x00000000#32))
          (broadcastTo ⟨2, ![R, H]⟩ (shapeCast ⟨2, ![1, H]⟩ b1 hb1) hB1)) (broadcast ⟨2, ![R, H]⟩ (Scalar.ofBits .f32 0x00000000#32))) ht) (shapeCast ⟨2, ![H, K]⟩ w2 hw2) (constant ⟨2, ![R, K]⟩ .f32 0x00000000#32))
          (broadcastTo ⟨2, ![R, K]⟩ (shapeCast ⟨2, ![1, K]⟩ b2 hb2) hB2)) (broadcast ⟨2, ![R, K]⟩ (Scalar.ofBits .f32 0x00000000#32))) ht) (shapeCast ⟨2, ![K, O]⟩ w3 hw3) (constant ⟨2, ![R, O]⟩ .f32 0x00000000#32))
        (broadcastTo ⟨2, ![R, O]⟩ (shapeCast ⟨2, ![1, O]⟩ b3 hb3) hB3) (ix2 p q)
    = mlp3Row (Ideal.ofBits .f32 0x00000000#32) (fun j => x (ix2 p j)) (fun j h => w1 (ix2 j h)) (fun h => b1 (ix2 (0 : Fin 1) h))
        (fun h k => w2 (ix2 h k)) (fun k => b2 (ix2 (0 : Fin 1) k)) (fun k o => w3 (ix2 k o)) (fun o => b3 (ix2 (0 : Fin 1) o)) q := by
  subst hd1 hd2 hd3
  simp only [mlp3Row, matmul, addf_apply, maximumf_apply, truncf_apply, LibMlp.matmul_zero_plain,
    broadcastTo_1b_ab_apply, shapeCast_self, broadcast_apply]
  rfl

/-- A vector `[n]` broadcast to one row `[1, n]` and then down the rows `[R, n]` reads, at `(r, k)`, its entry `k`. -/
theorem bias_rows_apply {α : Type} {R n : ℕ} (b : (⟨1, ![n]⟩ : Shape).Idx → α)
    (hb : (⟨1, ![n]⟩ : Shape).BroadcastsInDim ⟨2, ![1, n]⟩ ![1]) (hB : (⟨2, ![1, n]⟩ : Shape).BroadcastsInDim ⟨2, ![R, n]⟩ ![0, 1])
    (r : Fin R) (k : Fin n) :
    broadcastInDim ⟨2, ![R, n]⟩ ![0, 1] hB (broadcastInDim ⟨2, ![1, n]⟩ ![1] hb b) (ix2 r k) = b (ix1 k) := by
  rw [broadcastInDim_apply ![0, 1] hB _ (ix2 r k) (ix2 (0 : Fin 1) k) (fun a => by
    match a with
    | ⟨0, _⟩ => rfl
    | ⟨1, _⟩ => show k.val = if n = 1 then 0 else k.val; split <;> [(have := k.isLt; omega); rfl])]
  exact broadcastInDim_apply ![1] hb _ (ix2 (0 : Fin 1) k) (ix1 k) (fun a => by
    match a with
    | ⟨0, _⟩ => show k.val = if n = 1 then 0 else k.val; split <;> [(have := k.isLt; omega); rfl])

/-- A scalar constant broadcast to a matrix reads, everywhere, the extended real its word encodes. -/
theorem scalar_rows_apply {R n : ℕ} (w : BitVec FTy.f32.bits) (hz : (⟨0, ![]⟩ : Shape).BroadcastsInDim ⟨2, ![R, n]⟩ ![])
    (r : Fin R) (k : Fin n) :
    broadcastInDim ⟨2, ![R, n]⟩ ![] hz (constant (F := Ideal) ⟨0, ![]⟩ .f32 w) (ix2 r k) = Ideal.ofBits .f32 w :=
  broadcastInDim_apply ![] hz _ (ix2 r k) ix0 (fun a => a.elim0)

/-- The same perceptron as the host spells it: `dot_general`s, each bias broadcast to one row and then down the rows,
    each ReLU the maximum with a broadcast scalar zero. -/
theorem host_mlp3_apply {R I H K O : ℕ}
    (d1 : DotDims ⟨2, ![R, I]⟩ ⟨2, ![I, H]⟩ ⟨2, ![R, H]⟩) (hd1 : d1 = DotDims.plain R I H)
    (d2 : DotDims ⟨2, ![R, H]⟩ ⟨2, ![H, K]⟩ ⟨2, ![R, K]⟩) (hd2 : d2 = DotDims.plain R H K)
    (d3 : DotDims ⟨2, ![R, K]⟩ ⟨2, ![K, O]⟩ ⟨2, ![R, O]⟩) (hd3 : d3 = DotDims.plain R K O)
    (x : FVec Ideal ⟨2, ![R, I]⟩ .f32)
    (w1 : FVec Ideal ⟨2, ![I, H]⟩ .f32) (b1 : FVec Ideal ⟨1, ![H]⟩ .f32)
    (w2 : FVec Ideal ⟨2, ![H, K]⟩ .f32) (b2 : FVec Ideal ⟨1, ![K]⟩ .f32)
    (w3 : FVec Ideal ⟨2, ![K, O]⟩ .f32) (b3 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz1 : (⟨0, ![]⟩ : Shape).BroadcastsInDim ⟨2, ![R, H]⟩ ![])
    (hb2 : (⟨1, ![K]⟩ : Shape).BroadcastsInDim ⟨2, ![1, K]⟩ ![1]) (hB2 : (⟨2, ![1, K]⟩ : Shape).BroadcastsInDim ⟨2, ![R, K]⟩ ![0, 1])
    (hz2 : (⟨0, ![]⟩ : Shape).BroadcastsInDim ⟨2, ![R, K]⟩ ![])
    (hb3 : (⟨1, ![O]⟩ : Shape).BroadcastsInDim ⟨2, ![1, O]⟩ ![1]) (hB3 : (⟨2, ![1, O]⟩ : Shape).BroadcastsInDim ⟨2, ![R, O]⟩ ![0, 1])
    (p : Fin R) (q : Fin O) :
    addf (Host.dotGeneral d3 none (maximumf (addf (Host.dotGeneral d2 none (maximumf (addf (Host.dotGeneral d1 none x w1)
          (broadcastInDim ⟨2, ![R, H]⟩ ![0, 1] hB1 (broadcastInDim ⟨2, ![1, H]⟩ ![1] hb1 b1)))
          (broadcastInDim ⟨2, ![R, H]⟩ ![] hz1 (constant (F := Ideal) ⟨0, ![]⟩ .f32 0x00000000#32))) w2)
          (broadcastInDim ⟨2, ![R, K]⟩ ![0, 1] hB2 (broadcastInDim ⟨2, ![1, K]⟩ ![1] hb2 b2)))
          (broadcastInDim ⟨2, ![R, K]⟩ ![] hz2 (constant (F := Ideal) ⟨0, ![]⟩ .f32 0x00000000#32))) w3)
        (broadcastInDim ⟨2, ![R, O]⟩ ![0, 1] hB3 (broadcastInDim ⟨2, ![1, O]⟩ ![1] hb3 b3)) (ix2 p q)
    = mlp3Row (Ideal.ofBits .f32 0x00000000#32) (fun j => x (ix2 p j)) (fun j h => w1 (ix2 j h)) (fun h => b1 (ix1 h))
        (fun h k => w2 (ix2 h k)) (fun k => b2 (ix1 k)) (fun k o => w3 (ix2 k o)) (fun o => b3 (ix1 o)) q := by
  subst hd1 hd2 hd3
  simp only [mlp3Row, Host.dotGeneral, addf_apply, maximumf_apply, LibMlp.dotGeneral_plain,
    bias_rows_apply b1 hb1 hB1, bias_rows_apply b2 hb2 hB2, bias_rows_apply b3 hb3 hB3,
    scalar_rows_apply 0x00000000#32 hz1, scalar_rows_apply 0x00000000#32 hz2]

-- the two statements at literal shapes, as a program writes them; the side conditions are found by unification
example
    (d1 : DotDims ⟨2, ![10000, 64]⟩ ⟨2, ![64, 128]⟩ ⟨2, ![10000, 128]⟩) (hd1 : d1 = DotDims.plain 10000 64 128)
    (d2 : DotDims ⟨2, ![10000, 128]⟩ ⟨2, ![128, 128]⟩ ⟨2, ![10000, 128]⟩) (hd2 : d2 = DotDims.plain 10000 128 128)
    (d3 : DotDims ⟨2, ![10000, 128]⟩ ⟨2, ![128, 64]⟩ ⟨2, ![10000, 64]⟩) (hd3 : d3 = DotDims.plain 10000 128 64)
    (x : FVec Ideal ⟨2, ![10000, 64]⟩ .f32)
    (w1 : FVec Ideal ⟨2, ![64, 128]⟩ .bf16) (b1 : FVec Ideal ⟨2, ![1, 128]⟩ .f32)
    (w2 : FVec Ideal ⟨2, ![128, 128]⟩ .bf16) (b2 : FVec Ideal ⟨2, ![1, 128]⟩ .f32)
    (w3 : FVec Ideal ⟨2, ![128, 64]⟩ .bf16) (b3 : FVec Ideal ⟨2, ![1, 64]⟩ .f32)
    (hw1 : (⟨2, ![64, 128]⟩ : Shape).ShapeCasts ⟨2, ![64, 128]⟩) (hb1 : (⟨2, ![1, 128]⟩ : Shape).ShapeCasts ⟨2, ![1, 128]⟩)
    (hB1 : (⟨2, ![1, 128]⟩ : Shape).Broadcasts ⟨2, ![10000, 128]⟩)
    (hw2 : (⟨2, ![128, 128]⟩ : Shape).ShapeCasts ⟨2, ![128, 128]⟩)
    (hw3 : (⟨2, ![128, 64]⟩ : Shape).ShapeCasts ⟨2, ![128, 64]⟩) (hb3 : (⟨2, ![1, 64]⟩ : Shape).ShapeCasts ⟨2, ![1, 64]⟩)
    (hB3 : (⟨2, ![1, 64]⟩ : Shape).Broadcasts ⟨2, ![10000, 64]⟩)
    (ht : FTy.bf16.bits < FTy.f32.bits) (p : Fin 10000) (q : Fin 64) :
    addf (matmul d3 none (truncf .bf16 (maximumf (addf (matmul d2 none (truncf .bf16 (maximumf (addf (matmul d1 none (truncf .bf16 x ht) (shapeCast ⟨2, ![64, 128]⟩ w1 hw1) (constant ⟨2, ![10000, 128]⟩ .f32 0x00000000#32))
          (broadcastTo ⟨2, ![10000, 128]⟩ (shapeCast ⟨2, ![1, 128]⟩ b1 hb1) hB1)) (broadcast ⟨2, ![10000, 128]⟩ (Scalar.ofBits .f32 0x00000000#32))) ht) (shapeCast ⟨2, ![128, 128]⟩ w2 hw2) (constant ⟨2, ![10000, 128]⟩ .f32 0x00000000#32))
          (broadcastTo ⟨2, ![10000, 128]⟩ (shapeCast ⟨2, ![1, 128]⟩ b2 hb1) hB1)) (broadcast ⟨2, ![10000, 128]⟩ (Scalar.ofBits .f32 0x00000000#32))) ht) (shapeCast ⟨2, ![128, 64]⟩ w3 hw3) (constant ⟨2, ![10000, 64]⟩ .f32 0x00000000#32))
        (broadcastTo ⟨2, ![10000, 64]⟩ (shapeCast ⟨2, ![1, 64]⟩ b3 hb3) hB3) (ix2 p q)
    = mlp3Row (Ideal.ofBits .f32 0x00000000#32) (fun j => x (ix2 p j)) (fun j h => w1 (ix2 j h)) (fun h => b1 (ix2 (0 : Fin 1) h))
        (fun h k => w2 (ix2 h k)) (fun k => b2 (ix2 (0 : Fin 1) k)) (fun k o => w3 (ix2 k o)) (fun o => b3 (ix2 (0 : Fin 1) o)) q :=
  kernel_mlp3_apply d1 hd1 d2 hd2 d3 hd3 x w1 b1 w2 b2 w3 b3 _ _ _ _ _ _ _ _ _ ht p q

example
    (d1 : DotDims ⟨2, ![1600000, 64]⟩ ⟨2, ![64, 128]⟩ ⟨2, ![1600000, 128]⟩) (hd1 : d1 = DotDims.plain 1600000 64 128)
    (d2 : DotDims ⟨2, ![1600000, 128]⟩ ⟨2, ![128, 128]⟩ ⟨2, ![1600000, 128]⟩) (hd2 : d2 = DotDims.plain 1600000 128 128)
    (d3 : DotDims ⟨2, ![1600000, 128]⟩ ⟨2, ![128, 64]⟩ ⟨2, ![1600000, 64]⟩) (hd3 : d3 = DotDims.plain 1600000 128 64)
    (x : FVec Ideal ⟨2, ![1600000, 64]⟩ .f32)
    (w1 : FVec Ideal ⟨2, ![64, 128]⟩ .f32) (b1 : FVec Ideal ⟨1, ![128]⟩ .f32)
    (w2 : FVec Ideal ⟨2, ![128, 128]⟩ .f32) (b2 : FVec Ideal ⟨1, ![128]⟩ .f32)
    (w3 : FVec Ideal ⟨2, ![128, 64]⟩ .f32) (b3 : FVec Ideal ⟨1, ![64]⟩ .f32)
    (hb1 : (⟨1, ![128]⟩ : Shape).BroadcastsInDim ⟨2, ![1, 128]⟩ ![1]) (hB1 : (⟨2, ![1, 128]⟩ : Shape).BroadcastsInDim ⟨2, ![1600000, 128]⟩ ![0, 1])
    (hz1 : (⟨0, ![]⟩ : Shape).BroadcastsInDim ⟨2, ![1600000, 128]⟩ ![])
    (hb3 : (⟨1, ![64]⟩ : Shape).BroadcastsInDim ⟨2, ![1, 64]⟩ ![1]) (hB3 : (⟨2, ![1, 64]⟩ : Shape).BroadcastsInDim ⟨2, ![1600000, 64]⟩ ![0, 1])
    (p : Fin 1600000) (q : Fin 64) :
    addf (Host.dotGeneral d3 none (maximumf (addf (Host.dotGeneral d2 none (maximumf (addf (Host.dotGeneral d1 none x w1)
          (broadcastInDim ⟨2, ![1600000, 128]⟩ ![0, 1] hB1 (broadcastInDim ⟨2, ![1, 128]⟩ ![1] hb1 b1)))
          (broadcastInDim ⟨2, ![1600000, 128]⟩ ![] hz1 (constant (F := Ideal) ⟨0, ![]⟩ .f32 0x00000000#32))) w2)
          (broadcastInDim ⟨2, ![1600000, 128]⟩ ![0, 1] hB1 (broadcastInDim ⟨2, ![1, 128]⟩ ![1] hb1 b2)))
          (broadcastInDim ⟨2, ![1600000, 128]⟩ ![] hz1 (constant (F := Ideal) ⟨0, ![]⟩ .f32 0x00000000#32))) w3)
        (broadcastInDim ⟨2, ![1600000, 64]⟩ ![0, 1] hB3 (broadcastInDim ⟨2, ![1, 64]⟩ ![1] hb3 b3)) (ix2 p q)
    = mlp3Row (Ideal.ofBits .f32 0x00000000#32) (fun j => x (ix2 p j)) (fun j h => w1 (ix2 j h)) (fun h => b1 (ix1 h))
        (fun h k => w2 (ix2 h k)) (fun k => b2 (ix1 k)) (fun k o => w3 (ix2 k o)) (fun o => b3 (ix1 o)) q :=
  host_mlp3_apply d1 hd1 d2 hd2 d3 hd3 x w1 b1 w2 b2 w3 b3 _ _ _ _ _ _ _ _ p q

end Cert.LibMlp3

end
-- ==== Proof.NodeStage.lean ====
/-
  THE FIRST REGION'S VALUE. The first pipelined region runs the message perceptron on the node rows, ten blocks of
  10000 rows: at grid point `t` it reads rows 10000·t … 10000·t + 9999 of the node features (a block of window 0), the
  three weight matrices and the three bias rows whole (windows 1 to 6: their one block is the whole array), and writes
  rows 10000·t … of its output (window 7). The body's one store is the perceptron of the block's rows, so the block it
  writes back is the restriction to those rows of ONE whole-array function `nodeArr`: row `r`, column `q` is the
  three-layer perceptron of row `r` of the node features. The ten blocks tile the array (row `r` lies in block `r / 10000`),
  so after the region the output array IS `nodeArr` of the arrays the region found.
  All of this is stated at a parameter `V`, the memory the region is entered from; nothing about `V` is used.
-/
import proofs.«107831_j33019708572043_2_alg».proof.Proof.Gen.KernelIdeal.Frame
import proofs.«107831_j33019708572043_2_alg».proof.Proof.LibMlp3Rows
import Idealize.ShloMosaic.Lib.Pipeline.Value
import Idealize.ShloMosaic.Lib.ValueIdx

set_option maxRecDepth 16384

noncomputable section

namespace Cert.KernelIdeal.NodeStage

open Cert.KernelIdeal Cert.KernelIdeal.Gen Cert.LibMlp3
open Idealize.ShloMosaic Idealize.ShloMosaic.TcCoe Idealize.ShloMosaic.ValueIdx Idealize.SL.Sem
open Idealize.ShloMosaic.Pipeline (Dat Cfg Window)
open scoped BigOperators

/-- The message perceptron of node row `r`, output column `q`: weights as matrices, each bias as ONE ROW. -/
def nodeAt (nf : S100000x64.Idx → EReal) (w1 : S64x128.Idx → EReal) (b1 : S1x128.Idx → EReal) (w2 : S128x128.Idx → EReal)
    (b2 : S1x128.Idx → EReal) (w3 : S128x64.Idx → EReal) (b3 : S1x64.Idx → EReal) (r : Fin 100000) (q : Fin 64) : EReal :=
  mlp3Row (Ideal.ofBits .f32 0x00000000#32) (fun j : Fin 64 => nf (ix2 r j))
    (fun (j : Fin 64) (h : Fin 128) => w1 (ix2 j h)) (fun h : Fin 128 => b1 (ix2 (0 : Fin 1) h))
    (fun (h : Fin 128) (k : Fin 128) => w2 (ix2 h k)) (fun k : Fin 128 => b2 (ix2 (0 : Fin 1) k))
    (fun (k : Fin 128) (o : Fin 64) => w3 (ix2 k o)) (fun o : Fin 64 => b3 (ix2 (0 : Fin 1) o)) q

/-- The whole output array: entry `(r, q)` is the perceptron of node row `r` at column `q`. -/
def nodeArr (nf : S100000x64.Idx → EReal) (w1 : S64x128.Idx → EReal) (b1 : S1x128.Idx → EReal) (w2 : S128x128.Idx → EReal)
    (b2 : S1x128.Idx → EReal) (w3 : S128x64.Idx → EReal) (b3 : S1x64.Idx → EReal) : S100000x64.Idx → EReal :=
  fun i => nodeAt nf w1 b1 w2 b2 w3 b3 ⟨(i 0).val, idx2_lt0 i⟩ ⟨(i 1).val, idx2_lt1 i⟩

theorem nodeArr_ix2 (nf : S100000x64.Idx → EReal) (w1 : S64x128.Idx → EReal) (b1 : S1x128.Idx → EReal) (w2 : S128x128.Idx → EReal)
    (b2 : S1x128.Idx → EReal) (w3 : S128x64.Idx → EReal) (b3 : S1x64.Idx → EReal) (r : Fin 100000) (q : Fin 64) :
    nodeArr nf w1 b1 w2 b2 w3 b3 (ix2 r q) = nodeAt nf w1 b1 w2 b2 w3 b3 r q := rfl

/-- The body's stored value at row `p` of the block, column `q`: the perceptron of the block's row `p`. -/
theorem pay_apply (x0 : Vec Ideal S10000x64 .f32) (x1 : Vec Ideal S64x128 .bf16) (x2 : Vec Ideal S1x128 .f32)
    (x3 : Vec Ideal S128x128 .bf16) (x4 : Vec Ideal S1x128 .f32) (x5 : Vec Ideal S128x64 .bf16) (x6 : Vec Ideal S1x64 .f32)
    (p : Fin 10000) (q : Fin 64) :
    k0_pay1 (F := Ideal) x0 x1 x2 x3 x4 x5 x6 (ix2 p q)
      = mlp3Row (Ideal.ofBits .f32 0x00000000#32) (fun j : Fin 64 => x0 (ix2 p j))
          (fun (j : Fin 64) (h : Fin 128) => x1 (ix2 j h)) (fun h : Fin 128 => x2 (ix2 (0 : Fin 1) h))
          (fun (h : Fin 128) (k : Fin 128) => x3 (ix2 h k)) (fun k : Fin 128 => x4 (ix2 (0 : Fin 1) k))
          (fun (k : Fin 128) (o : Fin 64) => x5 (ix2 k o)) (fun o : Fin 64 => x6 (ix2 (0 : Fin 1) o)) q := by
  unfold k0_pay1
  exact kernel_mlp3_apply (R := 10000) (I := 64) (H := 128) (K := 128) (O := 64) _ rfl _ rfl _ rfl x0 x1 x2 x3 x4 x5 x6
    _ _ _ _ _ _ _ _ _ _ p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (0 and 7) are at block `(t, 0)`, the six whole
    windows at block `(0, 0)`. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 10 := by have := t.isLt; have h : cfg0.N = 10 := N_0; omega

/-- Row `p` of the node-feature block at point `t` is row `10000·t + p` of the array. -/
theorem blk_nf (c : Dev nD) (t : Fin cfg0.N) (p : Fin 10000) (j : Fin 64) (r : Fin 100000) (hr : r.val = t.val * 10000 + p.val) :
    iblk0 V c 0 t (ix2 p j) = V c main_arg0 (ix2 r j) := by
  obtain ⟨e0, e1, -⟩ := idx_facts t
  show V c main_arg0 (((cfg0.win 0).blk t).view.emb (ix2 p j)) = V c main_arg0 (ix2 r j)
  refine congrArg _ (funext fun a => Fin.ext ?_)
  match a with
  | ⟨0, _⟩ => show win0_0.index t (0 : Fin 2) * 10000 + 1 * p.val = r.val; omega
  | ⟨1, _⟩ => show win0_0.index t (1 : Fin 2) * 64 + 1 * j.val = j.val; omega

theorem blk_w1 (c : Dev nD) (t : Fin cfg0.N) (y : S64x128.Idx) : iblk0 V c 1 t y = V c main_v4 y := by
  obtain ⟨-, -, -, -, e0, e1, -⟩ := idx_facts t
  show V c main_v4 (((cfg0.win 1).blk t).view.emb y) = V c main_v4 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

theorem blk_b1 (c : Dev nD) (t : Fin cfg0.N) (y : S1x128.Idx) : iblk0 V c 2 t y = V c main_v7 y := by
  obtain ⟨-, -, -, -, -, -, e0, e1, -⟩ := idx_facts t
  show V c main_v7 (((cfg0.win 2).blk t).view.emb y) = V c main_v7 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk_w2 (c : Dev nD) (t : Fin cfg0.N) (y : S128x128.Idx) : iblk0 V c 3 t y = V c main_v5 y := by
  obtain ⟨-, -, -, -, -, -, -, -, e0, e1, -⟩ := idx_facts t
  show V c main_v5 (((cfg0.win 3).blk t).view.emb y) = V c main_v5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk_b2 (c : Dev nD) (t : Fin cfg0.N) (y : S1x128.Idx) : iblk0 V c 4 t y = V c main_v8 y := by
  obtain ⟨-, -, -, -, -, -, -, -, -, -, e0, e1, -⟩ := idx_facts t
  show V c main_v8 (((cfg0.win 4).blk t).view.emb y) = V c main_v8 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk_w3 (c : Dev nD) (t : Fin cfg0.N) (y : S128x64.Idx) : iblk0 V c 5 t y = V c main_v6 y := by
  obtain ⟨-, -, -, -, -, -, -, -, -, -, -, -, e0, e1, -⟩ := idx_facts t
  show V c main_v6 (((cfg0.win 5).blk t).view.emb y) = V c main_v6 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem blk_b3 (c : Dev nD) (t : Fin cfg0.N) (y : S1x64.Idx) : iblk0 V c 6 t y = V c main_v9 y := by
  obtain ⟨-, -, -, -, -, -, -, -, -, -, -, -, -, -, e0, e1⟩ := idx_facts t
  show V c main_v9 (((cfg0.win 6).blk t).view.emb y) = V c main_v9 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- WHAT POINT `t` WRITES BACK is block `t` of `nodeArr` of the arrays the region found. -/
theorem flushed_eq (c : Dev nD) (t : Fin cfg0.N) :
    (dat0 V c).flushed 7 t = ((cfg0.win 7).blk t).view.read (Elt Ideal)
      (nodeArr (V c main_arg0) (V c main_v4) (V c main_v7) (V c main_v5) (V c main_v8) (V c main_v6) (V c main_v9)) := by
  show (cfg0.win 7).cut (grid0.coords t) ((dat0 V c).after 7 t) = _
  rw [after0_7]
  unfold out0_7
  rw [View.canon_unit_zero hz]
  simp only [View.ld_unit_zero (S := S10000x64) hz, View.ld_unit_zero (S := S64x128) hz, View.ld_unit_zero (S := S1x128) hz,
    View.ld_unit_zero (S := S128x128) hz, View.ld_unit_zero (S := S128x64) hz, View.ld_unit_zero (S := S1x64) hz]
  funext y
  obtain ⟨p, q, rfl⟩ : ∃ (p : Fin 10000) (q : Fin 64), y = ix2 p q := ⟨y 0, y 1, eq_ix2 y⟩
  refine (pay_apply _ _ _ _ _ _ _ p q).trans ?_
  obtain ⟨-, -, e0, e1, -⟩ := idx_facts t
  have ht := t_lt t
  have hr : t.val * 10000 + p.val < 100000 := by have := p.isLt; omega
  show _ = nodeArr (V c main_arg0) (V c main_v4) (V c main_v7) (V c main_v5) (V c main_v8) (V c main_v6) (V c main_v9)
    (((cfg0.win 7).blk t).view.emb (ix2 p q))
  have hemb : ((cfg0.win 7).blk t).view.emb (ix2 p q) = (ix2 (⟨t.val * 10000 + p.val, hr⟩ : Fin 100000) q : S100000x64.Idx) := by
    funext a; refine Fin.ext ?_
    match a with
    | ⟨0, _⟩ => show win0_7.index t (0 : Fin 2) * 10000 + 1 * p.val = t.val * 10000 + p.val; omega
    | ⟨1, _⟩ => show win0_7.index t (1 : Fin 2) * 64 + 1 * q.val = q.val; omega
  rw [hemb, nodeArr_ix2]
  unfold nodeAt
  simp only [blk_nf V c t p _ ⟨t.val * 10000 + p.val, hr⟩ rfl, blk_w1 V c t, blk_b1 V c t, blk_w2 V c t, blk_b2 V c t, blk_w3 V c t, blk_b3 V c t]

/-- An index of the array is in point `t`'s block iff its row lies in rows 10000·t … 10000·t + 9999. -/
theorem mem_blk (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v10).slice (win0_7.rect t)).set ↔ _
  rw [View.set_slice_whole, Rect.mem_set_unit]
  exact Iff.rfl

/-- Every point is a grid point's index: the point with a given row-block number. -/
theorem idx_onto : ∀ q0 : Fin 10, ∃ t : Fin cfg0.N, win0_7.index t (0 : Fin 2) = q0.val ∧ win0_7.index t (1 : Fin 2) = 0 :=
  (by decide +kernel : ∀ q0 : Fin 10, ∃ t : Fin grid0.N, win0_7.index t (0 : Fin 2) = q0.val ∧ win0_7.index t (1 : Fin 2) = 0)

/-- THE ARRAY AFTER THE REGION: the ten blocks tile it, so it is `nodeArr` of the arrays the region found. -/
theorem final (c : Dev nD) :
    (dat0 V c).arrAt 7 cfg0.N
      = nodeArr (V c main_arg0) (V c main_v4) (V c main_v7) (V c main_v5) (V c main_v8) (V c main_v6) (V c main_v9) :=
  (dat0 V c).arrAt_eq_of_cover 7 _ (fun t _ => flushed_eq V c t) fun i => by
    have hi0 : (i 0).val < 100000 := idx2_lt0 i
    have hi1 : (i 1).val < 64 := idx2_lt1 i
    obtain ⟨t, h0, h1⟩ := idx_onto ⟨(i 0).val / 10000, by omega⟩
    refine ⟨t, flush0_7 t, ?_⟩
    rw [mem_blk]
    intro a
    match a with
    | ⟨0, _⟩ => show win0_7.index t (0 : Fin 2) * 10000 ≤ (i 0).val ∧ (i 0).val < win0_7.index t (0 : Fin 2) * 10000 + 10000; simp only [] at h0; omega
    | ⟨1, _⟩ => show win0_7.index t (1 : Fin 2) * 64 ≤ (i 1).val ∧ (i 1).val < win0_7.index t (1 : Fin 2) * 64 + 64; omega

end Cert.KernelIdeal.NodeStage

end
-- ==== Proof.LibConcatCols.lean ====
/-
  TWO MATRICES JOINED ALONG THEIR COLUMNS, READ AT AN ENTRY. The concatenation along axis 1 of `a : [R, A]` and
  `b : [R, B]` is a matrix `[R, T]` with `T = A + B`; its entry `(r, j)` is `a (r, j)` when `j < A` and
  `b (r, j − A)` otherwise.
  * `concat_cols_total`: the condition for the concatenation to be well formed gives `A + B = T`;
  * `concat_cols_apply`: the entry, as one `if` on `j < A`;
  * `concat_cols_apply_left` / `concat_cols_apply_right`: the two branches on their own.
-/
import Idealize.ShloMosaic.Lib.Pipeline.Value
import Idealize.ShloMosaic.Lib.ValueIdx

noncomputable section

namespace Cert.LibConcatCols

open Idealize.ShloMosaic Idealize.ShloMosaic.ValueIdx
open scoped BigOperators

/-- The column counts of the two pieces sum to the result's. -/
theorem concat_cols_total {R A B T : ℕ}
    (h : Shape.Concatenates [(⟨2, ![R, A]⟩ : Shape), ⟨2, ![R, B]⟩] ⟨2, ![R, T]⟩ (1 : Fin 2)) : A + B = T := by
  have e := h.2.2
  simp only [List.map, List.sum_cons, List.sum_nil] at e
  rw [dif_pos trivial, dif_pos trivial] at e
  exact e

/-- A column at or past the first piece's width is, that width less, a column of the second piece. -/
theorem concat_cols_lt {R A B T : ℕ}
    (h : Shape.Concatenates [(⟨2, ![R, A]⟩ : Shape), ⟨2, ![R, B]⟩] ⟨2, ![R, T]⟩ (1 : Fin 2)) (j : Fin T)
    (hj : ¬ j.val < A) : j.val - A < B := by
  have := concat_cols_total h; have := j.isLt; omega

/-- The entry `(r, j)` with `j` in the first piece. -/
theorem concat_cols_apply_left {α : Type} {R A B T : ℕ}
    (h : Shape.Concatenates [(⟨2, ![R, A]⟩ : Shape), ⟨2, ![R, B]⟩] ⟨2, ![R, T]⟩ (1 : Fin 2))
    (a : (⟨2, ![R, A]⟩ : Shape).Idx → α) (b : (⟨2, ![R, B]⟩ : Shape).Idx → α) (r : Fin R) (j : Fin T) (hj : j.val < A) :
    concatenate ⟨2, ![R, T]⟩ 1 [⟨⟨2, ![R, A]⟩, a⟩, ⟨⟨2, ![R, B]⟩, b⟩] h (ix2 r j) = a (ix2 r ⟨j.val, hj⟩) := by
  refine concatenate_pair_apply_left (1 : Fin 2) a b h (ix2 r j) rfl (ix2 r ⟨j.val, hj⟩) ?_
  intro c
  match c with
  | ⟨0, _⟩ => rfl
  | ⟨1, _⟩ => rfl

/-- The entry `(r, j)` with `j` in the second piece. -/
theorem concat_cols_apply_right {α : Type} {R A B T : ℕ}
    (h : Shape.Concatenates [(⟨2, ![R, A]⟩ : Shape), ⟨2, ![R, B]⟩] ⟨2, ![R, T]⟩ (1 : Fin 2))
    (a : (⟨2, ![R, A]⟩ : Shape).Idx → α) (b : (⟨2, ![R, B]⟩ : Shape).Idx → α) (r : Fin R) (j : Fin T) (hj : ¬ j.val < A) :
    concatenate ⟨2, ![R, T]⟩ 1 [⟨⟨2, ![R, A]⟩, a⟩, ⟨⟨2, ![R, B]⟩, b⟩] h (ix2 r j)
      = b (ix2 r ⟨j.val - A, concat_cols_lt h j hj⟩) := by
  refine concatenate_pair_apply_right (1 : Fin 2) a b h (ix2 r j) rfl rfl (ix2 r ⟨j.val - A, concat_cols_lt h j hj⟩) ?_ ?_
  · intro c hc
    match c with
    | ⟨0, _⟩ => rfl
    | ⟨1, _⟩ => exact absurd rfl hc
  · show j.val - A + A = j.val
    omega

/-- THE CONCATENATION ALONG THE COLUMNS AT `(r, j)`: the first piece below its width, the second piece past it. -/
theorem concat_cols_apply {α : Type} {R A B T : ℕ}
    (h : Shape.Concatenates [(⟨2, ![R, A]⟩ : Shape), ⟨2, ![R, B]⟩] ⟨2, ![R, T]⟩ (1 : Fin 2))
    (a : (⟨2, ![R, A]⟩ : Shape).Idx → α) (b : (⟨2, ![R, B]⟩ : Shape).Idx → α) (r : Fin R) (j : Fin T) :
    concatenate ⟨2, ![R, T]⟩ 1 [⟨⟨2, ![R, A]⟩, a⟩, ⟨⟨2, ![R, B]⟩, b⟩] h (ix2 r j)
      = if hj : j.val < A then a (ix2 r ⟨j.val, hj⟩) else b (ix2 r ⟨j.val - A, concat_cols_lt h j hj⟩) := by
  by_cases hj : j.val < A
  · rw [dif_pos hj]; exact concat_cols_apply_left h a b r j hj
  · rw [dif_neg hj]; exact concat_cols_apply_right h a b r j hj

-- the statement at literal shapes, as a program writes them
example (h : Shape.Concatenates [(⟨2, ![10000, 64]⟩ : Shape), ⟨2, ![10000, 64]⟩] ⟨2, ![10000, 128]⟩ 1)
    (a b : (⟨2, ![10000, 64]⟩ : Shape).Idx → EReal) (r : Fin 10000) (j : Fin 128) :
    concatenate ⟨2, ![10000, 128]⟩ 1 [⟨⟨2, ![10000, 64]⟩, a⟩, ⟨⟨2, ![10000, 64]⟩, b⟩] h (ix2 r j)
      = if hj : j.val < 64 then a (ix2 r ⟨j.val, hj⟩) else b (ix2 r ⟨j.val - 64, concat_cols_lt h j hj⟩) :=
  concat_cols_apply h a b r j

end Cert.LibConcatCols

end
-- ==== Proof.UpdateStage.lean ====
/-
  THE SECOND REGION'S VALUE. The second pipelined region runs the update perceptron on the node rows, ten blocks of
  10000 rows: at grid point `t` it reads rows 10000·t … of the node features (window 0) and of the aggregated messages
  (window 1), joins them side by side into rows of 128 entries, reads the three weight matrices and bias rows whole
  (windows 2 to 7), and writes rows 10000·t … of the result (window 8). The stored value is the perceptron of the joined
  row, so the block written back is the restriction of ONE whole-array function `updArr`: entry `(r, q)` is the three-layer
  perceptron of the 128-entry row "node features of `r`, then aggregated messages of `r`". The ten blocks tile the array.
  Stated at a parameter `V`, the memory the region is entered from.
-/
import proofs.«107831_j33019708572043_2_alg».proof.Proof.Gen.KernelIdeal.Frame
import proofs.«107831_j33019708572043_2_alg».proof.Proof.LibMlp3Rows
import proofs.«107831_j33019708572043_2_alg».proof.Proof.LibConcatCols
import Idealize.ShloMosaic.Lib.Pipeline.Value
import Idealize.ShloMosaic.Lib.ValueIdx

set_option maxRecDepth 16384

noncomputable section

namespace Cert.KernelIdeal.UpdateStage

open Cert.KernelIdeal Cert.KernelIdeal.Gen Cert.LibMlp3 Cert.LibConcatCols
open Idealize.ShloMosaic Idealize.ShloMosaic.TcCoe Idealize.ShloMosaic.ValueIdx Idealize.SL.Sem
open Idealize.ShloMosaic.Pipeline (Dat Cfg Window)
open scoped BigOperators

/-- Row `r` of "node features beside aggregated messages": entries 0–63 are the node's features, 64–127 its messages. -/
def joined (R : ℕ) (a b : (⟨2, ![R, 64]⟩ : Shape).Idx → EReal) (r : Fin R) (j : Fin 128) : EReal :=
  if hj : j.val < 64 then a (ix2 r ⟨j.val, hj⟩) else b (ix2 r ⟨j.val - 64, by have := j.isLt; omega⟩)

/-- The update perceptron of node row `r`, output column `q`: weights as matrices, each bias as ONE ROW. -/
def updAt (nf zz : S100000x64.Idx → EReal) (w1 : S128x128.Idx → EReal) (b1 : S1x128.Idx → EReal) (w2 : S128x128.Idx → EReal)
    (b2 : S1x128.Idx → EReal) (w3 : S128x64.Idx → EReal) (b3 : S1x64.Idx → EReal) (r : Fin 100000) (q : Fin 64) : EReal :=
  mlp3Row (Ideal.ofBits .f32 0x00000000#32) (joined 100000 nf zz r)
    (fun (j : Fin 128) (h : Fin 128) => w1 (ix2 j h)) (fun h : Fin 128 => b1 (ix2 (0 : Fin 1) h))
    (fun (h : Fin 128) (k : Fin 128) => w2 (ix2 h k)) (fun k : Fin 128 => b2 (ix2 (0 : Fin 1) k))
    (fun (k : Fin 128) (o : Fin 64) => w3 (ix2 k o)) (fun o : Fin 64 => b3 (ix2 (0 : Fin 1) o)) q

/-- The whole result array. -/
def updArr (nf zz : S100000x64.Idx → EReal) (w1 : S128x128.Idx → EReal) (b1 : S1x128.Idx → EReal) (w2 : S128x128.Idx → EReal)
    (b2 : S1x128.Idx → EReal) (w3 : S128x64.Idx → EReal) (b3 : S1x64.Idx → EReal) : S100000x64.Idx → EReal :=
  fun i => updAt nf zz w1 b1 w2 b2 w3 b3 ⟨(i 0).val, idx2_lt0 i⟩ ⟨(i 1).val, idx2_lt1 i⟩

theorem updArr_ix2 (nf zz : S100000x64.Idx → EReal) (w1 : S128x128.Idx → EReal) (b1 : S1x128.Idx → EReal) (w2 : S128x128.Idx → EReal)
    (b2 : S1x128.Idx → EReal) (w3 : S128x64.Idx → EReal) (b3 : S1x64.Idx → EReal) (r : Fin 100000) (q : Fin 64) :
    updArr nf zz w1 b1 w2 b2 w3 b3 (ix2 r q) = updAt nf zz w1 b1 w2 b2 w3 b3 r q := rfl

/-- The body's stored value at row `p` of the block, column `q`: the perceptron of the joined row `p` of the two blocks. -/
theorem pay_apply (x0 x1 : Vec Ideal S10000x64 .f32) (x2 : Vec Ideal S128x128 .bf16) (x3 : Vec Ideal S1x128 .f32)
    (x4 : Vec Ideal S128x128 .bf16) (x5 : Vec Ideal S1x128 .f32) (x6 : Vec Ideal S128x64 .bf16) (x7 : Vec Ideal S1x64 .f32)
    (p : Fin 10000) (q : Fin 64) :
    k1_pay1 (F := Ideal) x0 x1 x2 x3 x4 x5 x6 x7 (ix2 p q)
      = mlp3Row (Ideal.ofBits .f32 0x00000000#32) (joined 10000 x0 x1 p)
          (fun (j : Fin 128) (h : Fin 128) => x2 (ix2 j h)) (fun h : Fin 128 => x3 (ix2 (0 : Fin 1) h))
          (fun (h : Fin 128) (k : Fin 128) => x4 (ix2 h k)) (fun k : Fin 128 => x5 (ix2 (0 : Fin 1) k))
          (fun (k : Fin 128) (o : Fin 64) => x6 (ix2 k o)) (fun o : Fin 64 => x7 (ix2 (0 : Fin 1) o)) q := by
  unfold k1_pay1
  refine (kernel_mlp3_apply (R := 10000) (I := 128) (H := 128) (K := 128) (O := 64) _ rfl _ rfl _ rfl _ x2 x3 x4 x5 x6 x7
    _ _ _ _ _ _ _ _ _ _ p q).trans ?_
  refine congrArg (fun row => mlp3Row _ row _ _ _ _ _ _ q) (funext fun j => ?_)
  unfold joined
  rw [concat_cols_apply, shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (0, 1 and 8) are at block `(t, 0)`, the six whole
    windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem t_lt (t : Fin cfg1.N) : t.val < 10 := by have := t.isLt; have h : cfg1.N = 10 := N_1; omega

/-- Row `p` of the node-feature block at point `t` is row `10000·t + p` of the array. -/
theorem blk_nf (c : Dev nD) (t : Fin cfg1.N) (p : Fin 10000) (j : Fin 64) (r : Fin 100000) (hr : r.val = t.val * 10000 + p.val) :
    iblk1 V c 0 t (ix2 p j) = V c main_arg0 (ix2 r j) := by
  have e := idx_facts t
  show V c main_arg0 (((cfg1.win 0).blk t).view.emb (ix2 p j)) = V c main_arg0 (ix2 r j)
  refine congrArg _ (funext fun a => Fin.ext ?_)
  match a with
  | ⟨0, _⟩ => show win1_0.index t (0 : Fin 2) * 10000 + 1 * p.val = r.val; omega
  | ⟨1, _⟩ => show win1_0.index t (1 : Fin 2) * 64 + 1 * j.val = j.val; omega

/-- Row `p` of the aggregated-message block at point `t` is row `10000·t + p` of the array. -/
theorem blk_zz (c : Dev nD) (t : Fin cfg1.N) (p : Fin 10000) (j : Fin 64) (r : Fin 100000) (hr : r.val = t.val * 10000 + p.val) :
    iblk1 V c 1 t (ix2 p j) = V c main_v20 (ix2 r j) := by
  have e := idx_facts t
  show V c main_v20 (((cfg1.win 1).blk t).view.emb (ix2 p j)) = V c main_v20 (ix2 r j)
  refine congrArg _ (funext fun a => Fin.ext ?_)
  match a with
  | ⟨0, _⟩ => show win1_1.index t (0 : Fin 2) * 10000 + 1 * p.val = r.val; omega
  | ⟨1, _⟩ => show win1_1.index t (1 : Fin 2) * 64 + 1 * j.val = j.val; omega

theorem blk_w1 (c : Dev nD) (t : Fin cfg1.N) (y : S128x128.Idx) : iblk1 V c 2 t y = V c main_v21 y := by
  have e := idx_facts t
  show V c main_v21 (((cfg1.win 2).blk t).view.emb y) = V c main_v21 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk_b1 (c : Dev nD) (t : Fin cfg1.N) (y : S1x128.Idx) : iblk1 V c 3 t y = V c main_v24 y := by
  have e := idx_facts t
  show V c main_v24 (((cfg1.win 3).blk t).view.emb y) = V c main_v24 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk_w2 (c : Dev nD) (t : Fin cfg1.N) (y : S128x128.Idx) : iblk1 V c 4 t y = V c main_v22 y := by
  have e := idx_facts t
  show V c main_v22 (((cfg1.win 4).blk t).view.emb y) = V c main_v22 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blk_b2 (c : Dev nD) (t : Fin cfg1.N) (y : S1x128.Idx) : iblk1 V c 5 t y = V c main_v25 y := by
  have e := idx_facts t
  show V c main_v25 (((cfg1.win 5).blk t).view.emb y) = V c main_v25 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blk_w3 (c : Dev nD) (t : Fin cfg1.N) (y : S128x64.Idx) : iblk1 V c 6 t y = V c main_v23 y := by
  have e := idx_facts t
  show V c main_v23 (((cfg1.win 6).blk t).view.emb y) = V c main_v23 y
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 64 + 1 * (y 1).val = (y 1).val; omega

theorem blk_b3 (c : Dev nD) (t : Fin cfg1.N) (y : S1x64.Idx) : iblk1 V c 7 t y = V c main_v26 y := by
  have e := idx_facts t
  show V c main_v26 (((cfg1.win 7).blk t).view.emb y) = V c main_v26 y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- The joined row of the two blocks at point `t` is the joined row `10000·t + p` of the two arrays. -/
theorem joined_blk (c : Dev nD) (t : Fin cfg1.N) (p : Fin 10000) (r : Fin 100000) (hr : r.val = t.val * 10000 + p.val) :
    joined 10000 (iblk1 V c 0 t) (iblk1 V c 1 t) p = joined 100000 (V c main_arg0) (V c main_v20) r := by
  funext j
  unfold joined
  split
  · exact blk_nf V c t p _ r hr
  · exact blk_zz V c t p _ r hr

/-- WHAT POINT `t` WRITES BACK is block `t` of `updArr` of the arrays the region found. -/
theorem flushed_eq (c : Dev nD) (t : Fin cfg1.N) :
    (dat1 V c).flushed 8 t = ((cfg1.win 8).blk t).view.read (Elt Ideal)
      (updArr (V c main_arg0) (V c main_v20) (V c main_v21) (V c main_v24) (V c main_v22) (V c main_v25) (V c main_v23) (V c main_v26)) := by
  show (cfg1.win 8).cut (grid1.coords t) ((dat1 V c).after 8 t) = _
  rw [after1_8]
  unfold out1_8
  rw [View.canon_unit_zero hz]
  simp only [View.ld_unit_zero (S := S10000x64) hz, View.ld_unit_zero (S := S1x128) hz,
    View.ld_unit_zero (S := S128x128) hz, View.ld_unit_zero (S := S128x64) hz, View.ld_unit_zero (S := S1x64) hz]
  funext y
  obtain ⟨p, q, rfl⟩ : ∃ (p : Fin 10000) (q : Fin 64), y = ix2 p q := ⟨y 0, y 1, eq_ix2 y⟩
  refine (pay_apply _ _ _ _ _ _ _ _ p q).trans ?_
  have e := idx_facts t
  have ht := t_lt t
  have hr : t.val * 10000 + p.val < 100000 := by have := p.isLt; omega
  show _ = updArr (V c main_arg0) (V c main_v20) (V c main_v21) (V c main_v24) (V c main_v22) (V c main_v25) (V c main_v23) (V c main_v26)
    (((cfg1.win 8).blk t).view.emb (ix2 p q))
  have hemb : ((cfg1.win 8).blk t).view.emb (ix2 p q) = (ix2 (⟨t.val * 10000 + p.val, hr⟩ : Fin 100000) q : S100000x64.Idx) := by
    funext a; refine Fin.ext ?_
    match a with
    | ⟨0, _⟩ => show win1_8.index t (0 : Fin 2) * 10000 + 1 * p.val = t.val * 10000 + p.val; omega
    | ⟨1, _⟩ => show win1_8.index t (1 : Fin 2) * 64 + 1 * q.val = q.val; omega
  rw [hemb, updArr_ix2]
  unfold updAt
  rw [joined_blk V c t p ⟨t.val * 10000 + p.val, hr⟩ rfl]
  simp only [blk_w1 V c t, blk_b1 V c t, blk_w2 V c t, blk_b2 V c t, blk_w3 V c t, blk_b3 V c t]

/-- An index of the array is in point `t`'s block iff its row lies in rows 10000·t … 10000·t + 9999. -/
theorem mem_blk (t : Fin cfg1.N) (i : S100000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v27).slice (win1_8.rect t)).set ↔ _
  rw [View.set_slice_whole, Rect.mem_set_unit]
  exact Iff.rfl

theorem idx_onto : ∀ q0 : Fin 10, ∃ t : Fin cfg1.N, win1_8.index t (0 : Fin 2) = q0.val ∧ win1_8.index t (1 : Fin 2) = 0 :=
  (by decide +kernel : ∀ q0 : Fin 10, ∃ t : Fin grid1.N, win1_8.index t (0 : Fin 2) = q0.val ∧ win1_8.index t (1 : Fin 2) = 0)

/-- THE ARRAY AFTER THE REGION: the ten blocks tile it, so it is `updArr` of the arrays the region found. -/
theorem final (c : Dev nD) :
    (dat1 V c).arrAt 8 cfg1.N
      = updArr (V c main_arg0) (V c main_v20) (V c main_v21) (V c main_v24) (V c main_v22) (V c main_v25) (V c main_v23) (V c main_v26) :=
  (dat1 V c).arrAt_eq_of_cover 8 _ (fun t _ => flushed_eq V c t) fun i => by
    have hi0 : (i 0).val < 100000 := idx2_lt0 i
    have hi1 : (i 1).val < 64 := idx2_lt1 i
    obtain ⟨t, h0, h1⟩ := idx_onto ⟨(i 0).val / 10000, by omega⟩
    refine ⟨t, flush1_8 t, ?_⟩
    rw [mem_blk]
    intro a
    match a with
    | ⟨0, _⟩ => show win1_8.index t (0 : Fin 2) * 10000 ≤ (i 0).val ∧ (i 0).val < win1_8.index t (0 : Fin 2) * 10000 + 10000; simp only [] at h0; omega
    | ⟨1, _⟩ => show win1_8.index t (1 : Fin 2) * 64 ≤ (i 1).val ∧ (i 1).val < win1_8.index t (1 : Fin 2) * 64 + 64; omega

end Cert.KernelIdeal.UpdateStage

end
-- ==== Proof.HostStretch.lean ====
/-
  THE HOST OPERATIONS AROUND THE TWO REGIONS, read back. Before the first region the host rounds the three message
  weight matrices to bfloat16 and lays each message bias out as one row; between the regions it wraps negative source
  indices, gathers the first region's output rows at the source indices, adds the gathered rows into a zero array at the
  destination indices, rounds the three update weight matrices and lays the update biases out as rows. So:
  * the memory the FIRST region is entered from (`V1`) holds the node features as launched, each message weight matrix
    rounded, each message bias as a row;
  * the memory the SECOND region is entered from (`V3`) holds the node features as launched, the aggregated messages
    — the scatter-add, over the destination indices, of the gather, at the wrapped source indices, of what the first
    region left in its output array —, each update weight matrix rounded and each update bias as a row.
  The source and destination index arrays are named once (`srcIdx`, `dstIdx`) as functions of the edge array.
-/
import proofs.«107831_j33019708572043_2_alg».proof.Proof.Gen.KernelIdeal.Frame
import Idealize.ShloMosaic.Lib.StableHlo.Run
import Idealize.ShloMosaic.Lib.ValueIdx
import Idealize.ShloMosaic.PureOps.Ideal.Laws

set_option maxRecDepth 16384

noncomputable section

namespace Cert.KernelIdeal.HostStretch

open Cert.KernelIdeal Cert.KernelIdeal.Gen
open Idealize.ShloMosaic Idealize.ShloMosaic.TcCoe Idealize.ShloMosaic.ValueIdx Idealize.SL.Sem Idealize.ShloMosaic.StableHlo

/-- Row 0 of the edge array, as a vector: the source node of each edge. -/
def srcRaw (e1 : IVec S2x1600000 32) : IVec S1600000 32 :=
  shapeCast S1600000 (extractStridedSlice S1x1600000 ![0, 0] e1 slices_S2x1600000_S1x1600000_0_0) shapeCasts_S1x1600000_S1600000

/-- The gather's start indices: a negative source index counts from the end (100000 is added), as a column. -/
def srcIdx (e1 : IVec S2x1600000 32) : IVec S1600000x1 32 :=
  broadcastInDim S1600000x1 ![0] bcast_S1600000_S1600000x1_0
    (select (cmpi CmpIPredicate.slt (srcRaw e1) (broadcastInDim S1600000 ![] bcast_S_S1600000 (constantI S_ 32 0#32)))
      (addi (srcRaw e1) (broadcastInDim S1600000 ![] bcast_S_S1600000 (constantI S_ 32 100000#32))) (srcRaw e1))

/-- The scatter's indices: row 1 of the edge array (the destination node of each edge), as a column. -/
def dstIdx (e1 : IVec S2x1600000 32) : IVec S1600000x1 32 :=
  broadcastInDim S1600000x1 ![0] bcast_S1600000_S1600000x1_0
    (shapeCast S1600000 (extractStridedSlice S1x1600000 ![1, 0] e1 slices_S2x1600000_S1x1600000_1_0) shapeCasts_S1x1600000_S1600000)

/-- The aggregation: per-edge rows `u` added into a zero array at the destination indices. -/
def aggregate (e1 : IVec S2x1600000 32) (u : S1600000x64.Idx → EReal) : S100000x64.Idx → EReal :=
  Host.scatterAdd scatter_S100000x64_S1600000x1_S1600000x64_1_0_0_1
    (broadcastInDim S100000x64 ![] bcast_S_S100000x64 (constant (F := Ideal) S_ .f32 0x00000000#32)) (dstIdx e1) u

/-- The per-edge rows on the kernel side: the rows of `y` (the first region's output) at the wrapped source indices. -/
def gathered (e1 : IVec S2x1600000 32) (y : S100000x64.Idx → EReal) : S1600000x64.Idx → EReal :=
  Host.gather gather_S100000x64_S1600000x1_S1600000x64_1_0_n_n_0_1_164 y (srcIdx e1)

variable (m : (ℓ : Loc nD τ sig) → Buf (Elt Ideal) ℓ) (ρ : Dev nD → PrngReg)

/-! ## Before the first region -/

theorem V1_nf (c : Dev nD) : V1 m ρ c main_arg0 = m ((c : Thread nD τ).loc main_arg0) := by
  show StableHlo.after hostOps0 (W0 m ρ c) (Proc.devRef .tc main_arg0) = _
  after_results

theorem V1_w1 (c : Dev nD) : (V1 m ρ c main_v4 : S64x128.Idx → EReal)
    = (truncf .bf16 (m ((c : Thread nD τ).loc main_arg2) : FVec Ideal S64x128 .f32) bitsLt_bf16_f32 : FVec Ideal S64x128 .bf16) := by
  show StableHlo.after hostOps0 (W0 m ρ c) (Proc.devRef .tc main_v4) = _
  after_results
theorem V1_w2 (c : Dev nD) : (V1 m ρ c main_v5 : S128x128.Idx → EReal)
    = (truncf .bf16 (m ((c : Thread nD τ).loc main_arg4) : FVec Ideal S128x128 .f32) bitsLt_bf16_f32 : FVec Ideal S128x128 .bf16) := by
  show StableHlo.after hostOps0 (W0 m ρ c) (Proc.devRef .tc main_v5) = _
  after_results
theorem V1_w3 (c : Dev nD) : (V1 m ρ c main_v6 : S128x64.Idx → EReal)
    = (truncf .bf16 (m ((c : Thread nD τ).loc main_arg6) : FVec Ideal S128x64 .f32) bitsLt_bf16_f32 : FVec Ideal S128x64 .bf16) := by
  show StableHlo.after hostOps0 (W0 m ρ c) (Proc.devRef .tc main_v6) = _
  after_results
theorem V1_b1 (c : Dev nD) : (V1 m ρ c main_v7 : S1x128.Idx → EReal)
    = shapeCast S1x128 (m ((c : Thread nD τ).loc main_arg3) : FVec Ideal S128 .f32) shapeCasts_S128_S1x128 := by
  show StableHlo.after hostOps0 (W0 m ρ c) (Proc.devRef .tc main_v7) = _
  after_results; rfl
theorem V1_b2 (c : Dev nD) : (V1 m ρ c main_v8 : S1x128.Idx → EReal)
    = shapeCast S1x128 (m ((c : Thread nD τ).loc main_arg5) : FVec Ideal S128 .f32) shapeCasts_S128_S1x128 := by
  show StableHlo.after hostOps0 (W0 m ρ c) (Proc.devRef .tc main_v8) = _
  after_results; rfl
theorem V1_b3 (c : Dev nD) : (V1 m ρ c main_v9 : S1x64.Idx → EReal)
    = shapeCast S1x64 (m ((c : Thread nD τ).loc main_arg7) : FVec Ideal S64 .f32) shapeCasts_S64_S1x64 := by
  show StableHlo.after hostOps0 (W0 m ρ c) (Proc.devRef .tc main_v9) = _
  after_results; rfl

/-! ## Through the first region: the buffers it does not write -/

theorem W2_nf (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_nf m ρ c)))

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)

theorem W2_src (c : Dev nD) : (W2 m ρ c (Proc.devRef .tc main_v1) : IVec S1600000 32) = srcRaw (m ((c : Thread nD τ).loc main_arg1)) :=
  (W2_of_ne m ρ c main_v1 (by decide)).trans (by
    show StableHlo.after hostOps0 (W0 m ρ c) (Proc.devRef .tc main_v1) = _
    after_results; rfl)

theorem W2_dst (c : Dev nD) : (W2 m ρ c (Proc.devRef .tc main_v3) : IVec S1600000 32)
    = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (by
    show StableHlo.after hostOps0 (W0 m ρ c) (Proc.devRef .tc main_v3) = _
    after_results; rfl)

/-- The first region's output array is what its write-backs leave. -/
theorem W2_y (c : Dev nD) : W2 m ρ c (Proc.devRef .tc main_v10) = (dat0 (V1 m ρ) c).arrAt 7 cfg0.N := W2_arr m ρ c 7

/-! ## Before the second region -/

theorem V3_nf (c : Dev nD) : V3 m ρ c main_arg0 = m ((c : Thread nD τ).loc main_arg0) := by
  show StableHlo.after hostOps1 (W2 m ρ c) (Proc.devRef .tc main_arg0) = _
  after_results
  exact W2_nf m ρ c

/-- The aggregated messages the second region reads, over the contents the first region left. -/
theorem V3_zz_raw (c : Dev nD) : (V3 m ρ c main_v20 : S100000x64.Idx → EReal)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (W2 m ρ c (Proc.devRef .tc main_v3) : IVec S1600000 32))
        (Host.gather gather_S100000x64_S1600000x1_S1600000x64_1_0_n_n_0_1_164 (W2 m ρ c (Proc.devRef .tc main_v10) : S100000x64.Idx → EReal)
          (broadcastInDim S1600000x1 ![0] bcast_S1600000_S1600000x1_0
            (select (cmpi CmpIPredicate.slt (W2 m ρ c (Proc.devRef .tc main_v1) : IVec S1600000 32) (broadcastInDim S1600000 ![] bcast_S_S1600000 (constantI S_ 32 0#32)))
              (addi (W2 m ρ c (Proc.devRef .tc main_v1) : IVec S1600000 32) (broadcastInDim S1600000 ![] bcast_S_S1600000 (constantI S_ 32 100000#32)))
              (W2 m ρ c (Proc.devRef .tc main_v1) : IVec S1600000 32)))) := by
  show StableHlo.after hostOps1 (W2 m ρ c) (Proc.devRef .tc main_v20) = _
  after_results

/-- The aggregated messages the second region reads: the scatter-add of the gathered rows of the first region's output. -/
theorem V3_zz (c : Dev nD) : (V3 m ρ c main_v20 : S100000x64.Idx → EReal)
    = aggregate (m ((c : Thread nD τ).loc main_arg1)) (gathered (m ((c : Thread nD τ).loc main_arg1)) ((dat0 (V1 m ρ) c).arrAt 7 cfg0.N)) := by
  refine (V3_zz_raw m ρ c).trans ?_
  rw [W2_dst m ρ c, W2_src m ρ c, W2_y m ρ c]
  unfold aggregate gathered srcIdx dstIdx
  rfl

theorem V3_w1 (c : Dev nD) : (V3 m ρ c main_v21 : S128x128.Idx → EReal)
    = (truncf .bf16 (m ((c : Thread nD τ).loc main_arg8) : FVec Ideal S128x128 .f32) bitsLt_bf16_f32 : FVec Ideal S128x128 .bf16) := by
  show StableHlo.after hostOps1 (W2 m ρ c) (Proc.devRef .tc main_v21) = _
  after_results; rw [W2_arg8 m ρ c]
theorem V3_w2 (c : Dev nD) : (V3 m ρ c main_v22 : S128x128.Idx → EReal)
    = (truncf .bf16 (m ((c : Thread nD τ).loc main_arg10) : FVec Ideal S128x128 .f32) bitsLt_bf16_f32 : FVec Ideal S128x128 .bf16) := by
  show StableHlo.after hostOps1 (W2 m ρ c) (Proc.devRef .tc main_v22) = _
  after_results; rw [W2_arg10 m ρ c]
theorem V3_w3 (c : Dev nD) : (V3 m ρ c main_v23 : S128x64.Idx → EReal)
    = (truncf .bf16 (m ((c : Thread nD τ).loc main_arg12) : FVec Ideal S128x64 .f32) bitsLt_bf16_f32 : FVec Ideal S128x64 .bf16) := by
  show StableHlo.after hostOps1 (W2 m ρ c) (Proc.devRef .tc main_v23) = _
  after_results; rw [W2_arg12 m ρ c]
theorem V3_b1 (c : Dev nD) : (V3 m ρ c main_v24 : S1x128.Idx → EReal)
    = shapeCast S1x128 (m ((c : Thread nD τ).loc main_arg9) : FVec Ideal S128 .f32) shapeCasts_S128_S1x128 := by
  show StableHlo.after hostOps1 (W2 m ρ c) (Proc.devRef .tc main_v24) = _
  after_results; rw [W2_arg9 m ρ c]; rfl
theorem V3_b2 (c : Dev nD) : (V3 m ρ c main_v25 : S1x128.Idx → EReal)
    = shapeCast S1x128 (m ((c : Thread nD τ).loc main_arg11) : FVec Ideal S128 .f32) shapeCasts_S128_S1x128 := by
  show StableHlo.after hostOps1 (W2 m ρ c) (Proc.devRef .tc main_v25) = _
  after_results; rw [W2_arg11 m ρ c]; rfl
theorem V3_b3 (c : Dev nD) : (V3 m ρ c main_v26 : S1x64.Idx → EReal)
    = shapeCast S1x64 (m ((c : Thread nD τ).loc main_arg13) : FVec Ideal S64 .f32) shapeCasts_S64_S1x64 := by
  show StableHlo.after hostOps1 (W2 m ρ c) (Proc.devRef .tc main_v26) = _
  after_results; rw [W2_arg13 m ρ c]; rfl

end Cert.KernelIdeal.HostStretch

end
-- ==== Proof.LibRowGather.lean ====
/-
  A ROW GATHER READ AT AN ENTRY. `x[idx]` of a matrix `x : [N, C]` at a column of start indices `idx : [R, 1]`
  (offset axis 1 of the result, operand axis 0 collapsed, no batching axes, the start index naming operand axis 0, the
  index vector on axis 1 of the indices, slices of one whole row `[1, C]`) has the result `[R, C]` whose entry
  `(e, j)` is the operand's entry at row `clamp(idx[e, 0])` and column `j`: the start index is read as a signed
  integer and clamped into `[0, N − 1]` on axis 0 (the extent less the slice size 1), and on axis 1 the start is 0
  (the extent less the slice size is `C − C`, and the start index map does not name that axis), so the column is the
  result's own offset coordinate `j`.
  * `rowDims`: those dimension numbers, for any `N`, `R`, `C`;
  * `rowOf`: the row read, a function of the indices, the result's row and `N` alone;
  * `gather_rows_apply`: the gather at `(e, j)` is the operand at `(rowOf …, j)`; hence two operands of one shape are
    read at the same row (`gather_rows_same_row`).
-/
import Idealize.ShloMosaic.Lib.ValueIdx

noncomputable section

namespace Cert.LibRowGather

open Idealize.ShloMosaic Idealize.ShloMosaic.ValueIdx
open scoped BigOperators

/-- The dimension numbers of a row gather, for an operand `[N, C]`, start indices `[R, 1]` and result `[R, C]`; their
    conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a row gather reads for result row `e`: the start index `idx[e, 0]`, read signed, clamped into
    `[0, N − 1]`. It does not mention the operand. -/
def rowOf {N R w : ℕ} (hN : 0 < N) (idx : IVec ⟨2, ![R, 1]⟩ w) (e : Fin R) : Fin N :=
  ⟨min (idx (ix2 e (0 : Fin 1))).toInt.toNat (N - 1), by omega⟩

/-- THE ROW GATHER READ AT `(e, j)`: the operand at row `clamp(idx[e, 0])`, column `j`. -/
theorem gather_rows_apply {α : Type} {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- axis 0: the clamped start index; no batching coordinate; collapsed, so no offset coordinate
    show (rowDims N R C wf).start (ix2 e j) idx 0 + (rowDims N R C wf).batchCoord (ix2 e j) 0
        + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not named by the start index map, so the start is 0; no batching coordinate; the offset coordinate is j
    show (rowDims N R C wf).start (ix2 e j) idx 1 + (rowDims N R C wf).batchCoord (ix2 e j) 1
        + (rowDims N R C wf).offCoord (ix2 e j) 1 = _
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

/-- The same, with the row named: the row read depends on the indices, the result's row and `N` alone. -/
theorem gather_rows_apply' {α : Type} {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) :=
  gather_rows_apply hN wf x idx e j

/-- Two operands of one shape gathered at the same indices are read at the same row: if they agree on that row's
    entry they agree at the result's entry. -/
theorem gather_rows_same_row {α β : Type} {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (x' : (⟨2, ![N, C]⟩ : Shape).Idx → β) (idx : IVec ⟨2, ![R, 1]⟩ w)
    (e : Fin R) (j : Fin C) :
    ∃ n : Fin N, Host.gather (rowDims N R C wf) x idx (ix2 e j) = x (ix2 n j)
      ∧ Host.gather (rowDims N R C wf) x' idx (ix2 e j) = x' (ix2 n j) :=
  ⟨rowOf hN idx e, gather_rows_apply' hN wf x idx e j, gather_rows_apply' hN wf x' idx e j⟩

-- the statement at literal shapes, as a program writes them
example (wf : GatherDims.WF ⟨2, ![100000, 64]⟩ ⟨2, ![1600000, 1]⟩ ⟨2, ![1600000, 64]⟩ [1] [0] [] [0] [] 1 ![1, 64])
    (x : (⟨2, ![100000, 64]⟩ : Shape).Idx → EReal) (idx : IVec ⟨2, ![1600000, 1]⟩ 32) (e : Fin 1600000) (j : Fin 64) :
    Host.gather (rowDims 100000 1600000 64 wf) x idx (ix2 e j)
      = x (ix2 ⟨min (idx (ix2 e (0 : Fin 1))).toInt.toNat (100000 - 1), by omega⟩ j) :=
  gather_rows_apply (by omega) wf x idx e j

end Cert.LibRowGather

end
-- ==== Proof.KernelValue.lean ====
/-
  THE KERNEL PROGRAM'S RESULT AS ONE FUNCTION OF THE LAUNCH ARRAYS. Chaining the run (the result array is what the
  second region's write-backs leave), the second region's value (the update perceptron of "node features beside
  aggregated messages"), the host operations between the regions (the aggregated messages are the scatter-add of the
  gathered rows of the first region's output) and the first region's value (the message perceptron of every node row):
  the result is `result` of the fourteen arrays as launched.
  Read at an edge, the gathered row of the first region's output is the message perceptron of the SOURCE NODE's feature
  row (`msgRow`): a gather of rows commutes with a function applied row by row. The rounding of a weight matrix to
  bfloat16 is the identity on the extended reals, and a bias laid out as one row reads back its entries.
-/
import proofs.«107831_j33019708572043_2_alg».proof.Proof.KernelRun
import proofs.«107831_j33019708572043_2_alg».proof.Proof.NodeStage
import proofs.«107831_j33019708572043_2_alg».proof.Proof.UpdateStage
import proofs.«107831_j33019708572043_2_alg».proof.Proof.HostStretch
import proofs.«107831_j33019708572043_2_alg».proof.Proof.LibRowGather
import Idealize.ShloMosaic.Lib.ValueLayout

set_option maxRecDepth 16384

noncomputable section

namespace Cert.KernelIdeal.KernelValue

open Cert.KernelIdeal Cert.KernelIdeal.Gen Cert.LibMlp3 Cert.LibRowGather
open Cert.KernelIdeal.NodeStage Cert.KernelIdeal.UpdateStage Cert.KernelIdeal.HostStretch
open Idealize.ShloMosaic Idealize.ShloMosaic.TcCoe Idealize.ShloMosaic.ValueIdx Idealize.SL.Sem
open scoped BigOperators

/-- The first region's output: the message perceptron of every node row, from the weights and biases as launched. -/
def nodeOut (A0 : FVec Ideal S100000x64 .f32) (A2 : FVec Ideal S64x128 .f32) (A3 : FVec Ideal S128 .f32) (A4 : FVec Ideal S128x128 .f32)
    (A5 : FVec Ideal S128 .f32) (A6 : FVec Ideal S128x64 .f32) (A7 : FVec Ideal S64 .f32) : S100000x64.Idx → EReal :=
  nodeArr A0 (truncf .bf16 A2 bitsLt_bf16_f32 : FVec Ideal S64x128 .bf16) (shapeCast S1x128 A3 shapeCasts_S128_S1x128)
    (truncf .bf16 A4 bitsLt_bf16_f32 : FVec Ideal S128x128 .bf16) (shapeCast S1x128 A5 shapeCasts_S128_S1x128)
    (truncf .bf16 A6 bitsLt_bf16_f32 : FVec Ideal S128x64 .bf16) (shapeCast S1x64 A7 shapeCasts_S64_S1x64)

/-- The kernel program's result from the fourteen arrays as launched. -/
def result (A0 : FVec Ideal S100000x64 .f32) (E : IVec S2x1600000 32) (A2 : FVec Ideal S64x128 .f32) (A3 : FVec Ideal S128 .f32)
    (A4 : FVec Ideal S128x128 .f32) (A5 : FVec Ideal S128 .f32) (A6 : FVec Ideal S128x64 .f32) (A7 : FVec Ideal S64 .f32)
    (A8 : FVec Ideal S128x128 .f32) (A9 : FVec Ideal S128 .f32) (A10 : FVec Ideal S128x128 .f32) (A11 : FVec Ideal S128 .f32)
    (A12 : FVec Ideal S128x64 .f32) (A13 : FVec Ideal S64 .f32) : S100000x64.Idx → EReal :=
  updArr A0 (aggregate E (gathered E (nodeOut A0 A2 A3 A4 A5 A6 A7)))
    (truncf .bf16 A8 bitsLt_bf16_f32 : FVec Ideal S128x128 .bf16) (shapeCast S1x128 A9 shapeCasts_S128_S1x128)
    (truncf .bf16 A10 bitsLt_bf16_f32 : FVec Ideal S128x128 .bf16) (shapeCast S1x128 A11 shapeCasts_S128_S1x128)
    (truncf .bf16 A12 bitsLt_bf16_f32 : FVec Ideal S128x64 .bf16) (shapeCast S1x64 A13 shapeCasts_S64_S1x64)

/-- The message of edge `e`, column `q`: the message perceptron of the feature row of the edge's source node (the
    start index `SRC[e, 0]` read signed and clamped into the node range). -/
def msgRow (A0 : FVec Ideal S100000x64 .f32) (SRC : IVec S1600000x1 32) (A2 : FVec Ideal S64x128 .f32) (A3 : FVec Ideal S128 .f32)
    (A4 : FVec Ideal S128x128 .f32) (A5 : FVec Ideal S128 .f32) (A6 : FVec Ideal S128x64 .f32) (A7 : FVec Ideal S64 .f32)
    (e : Fin 1600000) (q : Fin 64) : EReal :=
  mlp3Row (Ideal.ofBits .f32 0x00000000#32) (fun j : Fin 64 => A0 (ix2 (rowOf (by omega : 0 < 100000) SRC e) j))
    (fun (j : Fin 64) (h : Fin 128) => A2 (ix2 j h)) (fun h : Fin 128 => A3 (ix1 h))
    (fun (h : Fin 128) (k : Fin 128) => A4 (ix2 h k)) (fun k : Fin 128 => A5 (ix1 k))
    (fun (k : Fin 128) (o : Fin 64) => A6 (ix2 k o)) (fun o : Fin 64 => A7 (ix1 o)) q

/-- A gathered row of the first region's output is the message of that edge. -/
theorem gathered_apply (A0 : FVec Ideal S100000x64 .f32) (E : IVec S2x1600000 32) (A2 : FVec Ideal S64x128 .f32) (A3 : FVec Ideal S128 .f32)
    (A4 : FVec Ideal S128x128 .f32) (A5 : FVec Ideal S128 .f32) (A6 : FVec Ideal S128x64 .f32) (A7 : FVec Ideal S64 .f32)
    (e : Fin 1600000) (q : Fin 64) :
    gathered E (nodeOut A0 A2 A3 A4 A5 A6 A7) (ix2 e q) = msgRow A0 (srcIdx E) A2 A3 A4 A5 A6 A7 e q := by
  unfold gathered
  refine (gather_rows_apply' (by omega : 0 < 100000) _ (nodeOut A0 A2 A3 A4 A5 A6 A7) (srcIdx E) e q).trans ?_
  unfold nodeOut
  rw [nodeArr_ix2]
  unfold nodeAt msgRow
  simp only [truncf_apply, shapeCast_a_1a_apply]

/-- The update perceptron's weights and biases, entry by entry, from the arrays as launched. -/
theorem result_apply (A0 : FVec Ideal S100000x64 .f32) (E : IVec S2x1600000 32) (A2 : FVec Ideal S64x128 .f32) (A3 : FVec Ideal S128 .f32)
    (A4 : FVec Ideal S128x128 .f32) (A5 : FVec Ideal S128 .f32) (A6 : FVec Ideal S128x64 .f32) (A7 : FVec Ideal S64 .f32)
    (A8 : FVec Ideal S128x128 .f32) (A9 : FVec Ideal S128 .f32) (A10 : FVec Ideal S128x128 .f32) (A11 : FVec Ideal S128 .f32)
    (A12 : FVec Ideal S128x64 .f32) (A13 : FVec Ideal S64 .f32) (r : Fin 100000) (q : Fin 64) :
    result A0 E A2 A3 A4 A5 A6 A7 A8 A9 A10 A11 A12 A13 (ix2 r q)
      = mlp3Row (Ideal.ofBits .f32 0x00000000#32) (joined 100000 A0 (aggregate E (gathered E (nodeOut A0 A2 A3 A4 A5 A6 A7))) r)
          (fun (j : Fin 128) (h : Fin 128) => A8 (ix2 j h)) (fun h : Fin 128 => A9 (ix1 h))
          (fun (h : Fin 128) (k : Fin 128) => A10 (ix2 h k)) (fun k : Fin 128 => A11 (ix1 k))
          (fun (k : Fin 128) (o : Fin 64) => A12 (ix2 k o)) (fun o : Fin 64 => A13 (ix1 o)) q := by
  unfold result
  rw [updArr_ix2]
  unfold updAt
  simp only [truncf_apply, shapeCast_a_1a_apply]

variable (m : (ℓ : Loc nD τ sig) → Buf (Elt Ideal) ℓ) (ρ : Dev nD → PrngReg)

/-- What the second region's write-backs leave is `result` of the arrays as launched. -/
theorem final (c : Dev nD) : (dat1 (V3 m ρ) c).arrAt 8 cfg1.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  rw [UpdateStage.final (V3 m ρ) c, V3_nf m ρ c, V3_zz m ρ c, V3_w1 m ρ c, V3_b1 m ρ c, V3_w2 m ρ c, V3_b2 m ρ c, V3_w3 m ρ c, V3_b3 m ρ c,
    NodeStage.final (V1 m ρ) c, V1_nf m ρ c, V1_w1 m ρ c, V1_b1 m ρ c, V1_w2 m ρ c, V1_b2 m ρ c, V1_w3 m ρ c, V1_b3 m ρ c]
  rfl

/-- THE RUN: every weakly fair execution terminates with the result array at `result` of the launch arrays and the
    arguments unchanged. -/
theorem run : θ_run defs (onTc (τ := τ) (main (F := Ideal))) ⟨m, fun _ => 0, ρ⟩ (fun r => ∀ c : Dev nD,
      r.2.mem ((c.tc : Thread nD τ).loc main_v27)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (final m ρ c), (h c).2⟩) (RunValue.run m ρ)

end Cert.KernelIdeal.KernelValue

end
-- ==== Proof.RefStages.lean ====
/-
  THE REFERENCE'S TWO PERCEPTRON STAGES, READ AT AN ENTRY, over arbitrary operands.
  * `ref_msg_apply`: the message stage — the rows of the node features gathered at a column of start indices, sent
    through a three-layer perceptron in the host's spelling — is at entry `(e, q)` the perceptron `mlp3Row` of the
    gathered row, that is of row `rowOf … SRC e` of the features (the start index read signed and clamped);
  * `ref_out_apply`: the update stage — the features joined along the columns with a second matrix `Z`, sent through
    a second three-layer perceptron — is at entry `(r, q)` the perceptron `mlp3Row` of the joined row: the features'
    row `r` on the first 64 columns, `Z`'s row `r` on the last 64.
  Each is the host-spelling perceptron read at an entry, composed with the row gather resp. the column concatenation
  read at an entry.
-/
import proofs.«107831_j33019708572043_2_alg».proof.Proof.Gen.ReferenceIdeal.Run
import proofs.«107831_j33019708572043_2_alg».proof.Proof.LibMlp3Rows
import proofs.«107831_j33019708572043_2_alg».proof.Proof.LibRowGather
import proofs.«107831_j33019708572043_2_alg».proof.Proof.LibConcatCols

noncomputable section

namespace Cert.ReferenceIdeal.RefStages

open Cert.ReferenceIdeal Cert.ReferenceIdeal.Gen Cert.LibMlp3 Cert.LibRowGather Cert.LibConcatCols
open Idealize.ShloMosaic Idealize.ShloMosaic.ValueIdx
open scoped BigOperators

/-- The message stage at entry `(e, q)`: the three-layer perceptron of the features' row that the start index
    `SRC[e, 0]` names. -/
theorem ref_msg_apply (A0 : FVec Ideal S100000x64 .f32) (SRC : IVec S1600000x1 32)
    (A2 : FVec Ideal S64x128 .f32) (A3 : FVec Ideal S128 .f32) (A4 : FVec Ideal S128x128 .f32) (A5 : FVec Ideal S128 .f32)
    (A6 : FVec Ideal S128x64 .f32) (A7 : FVec Ideal S64 .f32) (e : Fin 1600000) (q : Fin 64) :
    addf (Host.dotGeneral dot_S1600000x128_S128x64_S1600000x64_1_0_0_1_n_n none (maximumf (addf (Host.dotGeneral dot_S1600000x128_S128x128_S1600000x128_1_0_0_1_n_n none (maximumf (addf (Host.dotGeneral dot_S1600000x64_S64x128_S1600000x128_1_0_0_1_n_n none (Host.gather gather_S100000x64_S1600000x1_S1600000x64_1_0_n_n_0_1_164 A0 SRC) A2) (broadcastInDim S1600000x128 ![0, 1] bcast_S1x128_S1600000x128_0_1 (broadcastInDim S1x128 ![1] bcast_S128_S1x128_1 A3))) (broadcastInDim S1600000x128 ![] bcast_S_S1600000x128 (constant S_ .f32 0x00000000#32))) A4) (broadcastInDim S1600000x128 ![0, 1] bcast_S1x128_S1600000x128_0_1 (broadcastInDim S1x128 ![1] bcast_S128_S1x128_1 A5))) (broadcastInDim S1600000x128 ![] bcast_S_S1600000x128 (constant S_ .f32 0x00000000#32))) A6) (broadcastInDim S1600000x64 ![0, 1] bcast_S1x64_S1600000x64_0_1 (broadcastInDim S1x64 ![1] bcast_S64_S1x64_1 A7)) (ix2 e q)
    = mlp3Row (Ideal.ofBits .f32 0x00000000#32) (fun j : Fin 64 => A0 (ix2 (rowOf (by omega : 0 < 100000) SRC e) j))
        (fun (j : Fin 64) (h : Fin 128) => A2 (ix2 j h)) (fun h : Fin 128 => A3 (ix1 h))
        (fun (h k : Fin 128) => A4 (ix2 h k)) (fun k : Fin 128 => A5 (ix1 k))
        (fun (k : Fin 128) (o : Fin 64) => A6 (ix2 k o)) (fun o : Fin 64 => A7 (ix1 o)) q :=
  (host_mlp3_apply dot_S1600000x64_S64x128_S1600000x128_1_0_0_1_n_n rfl dot_S1600000x128_S128x128_S1600000x128_1_0_0_1_n_n rfl
      dot_S1600000x128_S128x64_S1600000x64_1_0_0_1_n_n rfl
      (Host.gather gather_S100000x64_S1600000x1_S1600000x64_1_0_n_n_0_1_164 A0 SRC) A2 A3 A4 A5 A6 A7
      bcast_S128_S1x128_1 bcast_S1x128_S1600000x128_0_1 bcast_S_S1600000x128
      bcast_S128_S1x128_1 bcast_S1x128_S1600000x128_0_1 bcast_S_S1600000x128
      bcast_S64_S1x64_1 bcast_S1x64_S1600000x64_0_1 e q).trans
    (congrArg
      (fun row : Fin 64 → EReal => mlp3Row (Ideal.ofBits .f32 0x00000000#32) row
        (fun (j : Fin 64) (h : Fin 128) => A2 (ix2 j h)) (fun h : Fin 128 => A3 (ix1 h))
        (fun (h k : Fin 128) => A4 (ix2 h k)) (fun k : Fin 128 => A5 (ix1 k))
        (fun (k : Fin 128) (o : Fin 64) => A6 (ix2 k o)) (fun o : Fin 64 => A7 (ix1 o)) q)
      (funext fun j : Fin 64 =>
        gather_rows_apply' (by omega : 0 < 100000) gather_S100000x64_S1600000x1_S1600000x64_1_0_n_n_0_1_164_wf A0 SRC e j))

/-- The update stage at entry `(r, q)`: the three-layer perceptron of the features' row `r` followed by `Z`'s row `r`. -/
theorem ref_out_apply (A0 Z : FVec Ideal S100000x64 .f32)
    (A8 : FVec Ideal S128x128 .f32) (A9 : FVec Ideal S128 .f32) (A10 : FVec Ideal S128x128 .f32) (A11 : FVec Ideal S128 .f32)
    (A12 : FVec Ideal S128x64 .f32) (A13 : FVec Ideal S64 .f32) (r : Fin 100000) (q : Fin 64) :
    addf (Host.dotGeneral dot_S100000x128_S128x64_S100000x64_1_0_0_1_n_n none (maximumf (addf (Host.dotGeneral dot_S100000x128_S128x128_S100000x128_1_0_0_1_n_n none (maximumf (addf (Host.dotGeneral dot_S100000x128_S128x128_S100000x128_1_0_0_1_n_n none (concatenate S100000x128 1 [⟨S100000x64, A0⟩, ⟨S100000x64, Z⟩] concatenates_S100000x64_S100000x64_S100000x128_d1) A8) (broadcastInDim S100000x128 ![0, 1] bcast_S1x128_S100000x128_0_1 (broadcastInDim S1x128 ![1] bcast_S128_S1x128_1 A9))) (broadcastInDim S100000x128 ![] bcast_S_S100000x128 (constant S_ .f32 0x00000000#32))) A10) (broadcastInDim S100000x128 ![0, 1] bcast_S1x128_S100000x128_0_1 (broadcastInDim S1x128 ![1] bcast_S128_S1x128_1 A11))) (broadcastInDim S100000x128 ![] bcast_S_S100000x128 (constant S_ .f32 0x00000000#32))) A12) (broadcastInDim S100000x64 ![0, 1] bcast_S1x64_S100000x64_0_1 (broadcastInDim S1x64 ![1] bcast_S64_S1x64_1 A13)) (ix2 r q)
    = mlp3Row (Ideal.ofBits .f32 0x00000000#32)
        (fun j : Fin 128 => if hj : j.val < 64 then A0 (ix2 r ⟨j.val, hj⟩) else Z (ix2 r ⟨j.val - 64, by have := j.isLt; omega⟩))
        (fun (j h : Fin 128) => A8 (ix2 j h)) (fun h : Fin 128 => A9 (ix1 h))
        (fun (h k : Fin 128) => A10 (ix2 h k)) (fun k : Fin 128 => A11 (ix1 k))
        (fun (k : Fin 128) (o : Fin 64) => A12 (ix2 k o)) (fun o : Fin 64 => A13 (ix1 o)) q :=
  (host_mlp3_apply dot_S100000x128_S128x128_S100000x128_1_0_0_1_n_n rfl dot_S100000x128_S128x128_S100000x128_1_0_0_1_n_n rfl
      dot_S100000x128_S128x64_S100000x64_1_0_0_1_n_n rfl
      (concatenate S100000x128 1 [⟨S100000x64, A0⟩, ⟨S100000x64, Z⟩] concatenates_S100000x64_S100000x64_S100000x128_d1) A8 A9 A10 A11 A12 A13
      bcast_S128_S1x128_1 bcast_S1x128_S100000x128_0_1 bcast_S_S100000x128
      bcast_S128_S1x128_1 bcast_S1x128_S100000x128_0_1 bcast_S_S100000x128
      bcast_S64_S1x64_1 bcast_S1x64_S100000x64_0_1 r q).trans
    (congrArg
      (fun row : Fin 128 → EReal => mlp3Row (Ideal.ofBits .f32 0x00000000#32) row
        (fun (j h : Fin 128) => A8 (ix2 j h)) (fun h : Fin 128 => A9 (ix1 h))
        (fun (h k : Fin 128) => A10 (ix2 h k)) (fun k : Fin 128 => A11 (ix1 k))
        (fun (k : Fin 128) (o : Fin 64) => A12 (ix2 k o)) (fun o : Fin 64 => A13 (ix1 o)) q)
      (funext fun j : Fin 128 =>
        concat_cols_apply concatenates_S100000x64_S100000x64_S100000x128_d1 A0 Z r j))

end Cert.ReferenceIdeal.RefStages

end
-- ==== Proof.Bridge.lean ====
/-
  THE TWO PROGRAMS COMPUTE ONE FUNCTION. The reference gathers the source nodes' feature rows first and runs the
  message perceptron on the 1600000 gathered rows; the kernel program runs the same perceptron on the 100000 node rows
  and gathers its output rows. A perceptron acts row by row, so entry `(e, q)` of either is the perceptron of the feature
  row of edge `e`'s source node (`msgs_eq`): the per-edge messages agree, hence so do their scatter-adds over the same
  destination indices (`agg_eq`), and the update perceptron of "node features beside aggregated messages" is then the
  same sum of the same products on both sides (`ref_eq_kernel`). No finiteness is used: only that the two sides are the
  same terms entry by entry.
-/
import proofs.«107831_j33019708572043_2_alg».proof.Proof.KernelValue
import proofs.«107831_j33019708572043_2_alg».proof.Proof.RefStages

set_option maxRecDepth 16384

noncomputable section

namespace Cert.Proof.Bridge

open Cert.ReferenceIdeal Cert.ReferenceIdeal.Gen Cert.ReferenceIdeal.RefStages
open Cert.LibMlp3 Cert.LibRowGather
open Idealize.ShloMosaic Idealize.ShloMosaic.ValueIdx

/-- The reference's per-edge messages (perceptron of the gathered feature rows) are the kernel program's gathered rows
    of the node-wise perceptron. -/
theorem msgs_eq (A0 : FVec Ideal S100000x64 .f32) (E : IVec S2x1600000 32) (A2 : FVec Ideal S64x128 .f32) (A3 : FVec Ideal S128 .f32)
    (A4 : FVec Ideal S128x128 .f32) (A5 : FVec Ideal S128 .f32) (A6 : FVec Ideal S128x64 .f32) (A7 : FVec Ideal S64 .f32) :
    (addf (Host.dotGeneral dot_S1600000x128_S128x64_S1600000x64_1_0_0_1_n_n none (maximumf (addf (Host.dotGeneral dot_S1600000x128_S128x128_S1600000x128_1_0_0_1_n_n none (maximumf (addf (Host.dotGeneral dot_S1600000x64_S64x128_S1600000x128_1_0_0_1_n_n none (Host.gather gather_S100000x64_S1600000x1_S1600000x64_1_0_n_n_0_1_164 A0 (broadcastInDim S1600000x1 ![0] bcast_S1600000_S1600000x1_0 (select (cmpi .slt (shapeCast _ (extractStridedSlice S1x1600000 ![0, 0] E slices_S2x1600000_S1x1600000_0_0) shapeCasts_S1x1600000_S1600000) (broadcastInDim S1600000 ![] bcast_S_S1600000 (constantI S_ 32 0#32))) (addi (shapeCast _ (extractStridedSlice S1x1600000 ![0, 0] E slices_S2x1600000_S1x1600000_0_0) shapeCasts_S1x1600000_S1600000) (broadcastInDim S1600000 ![] bcast_S_S1600000 (constantI S_ 32 100000#32))) (shapeCast _ (extractStridedSlice S1x1600000 ![0, 0] E slices_S2x1600000_S1x1600000_0_0) shapeCasts_S1x1600000_S1600000)))) A2) (broadcastInDim S1600000x128 ![0, 1] bcast_S1x128_S1600000x128_0_1 (broadcastInDim S1x128 ![1] bcast_S128_S1x128_1 A3))) (broadcastInDim S1600000x128 ![] bcast_S_S1600000x128 (constant S_ .f32 0x00000000#32))) A4) (broadcastInDim S1600000x128 ![0, 1] bcast_S1x128_S1600000x128_0_1 (broadcastInDim S1x128 ![1] bcast_S128_S1x128_1 A5))) (broadcastInDim S1600000x128 ![] bcast_S_S1600000x128 (constant S_ .f32 0x00000000#32))) A6) (broadcastInDim S1600000x64 ![0, 1] bcast_S1x64_S1600000x64_0_1 (broadcastInDim S1x64 ![1] bcast_S64_S1x64_1 A7)))
      = Cert.KernelIdeal.HostStretch.gathered E (Cert.KernelIdeal.KernelValue.nodeOut A0 A2 A3 A4 A5 A6 A7) := by
  funext i
  obtain ⟨e, q, rfl⟩ : ∃ (e : Fin 1600000) (q : Fin 64), i = ix2 e q := ⟨i 0, i 1, eq_ix2 i⟩
  rw [Cert.KernelIdeal.KernelValue.gathered_apply]
  exact ref_msg_apply A0 _ A2 A3 A4 A5 A6 A7 e q

/-- So the aggregated messages agree: the same scatter-add, over the same destination indices, of equal rows. -/
theorem agg_eq (A0 : FVec Ideal S100000x64 .f32) (E : IVec S2x1600000 32) (A2 : FVec Ideal S64x128 .f32) (A3 : FVec Ideal S128 .f32)
    (A4 : FVec Ideal S128x128 .f32) (A5 : FVec Ideal S128 .f32) (A6 : FVec Ideal S128x64 .f32) (A7 : FVec Ideal S64 .f32) :
    (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] E slices_S2x1600000_S1x1600000_1_0) shapeCasts_S1x1600000_S1600000)) (addf (Host.dotGeneral dot_S1600000x128_S128x64_S1600000x64_1_0_0_1_n_n none (maximumf (addf (Host.dotGeneral dot_S1600000x128_S128x128_S1600000x128_1_0_0_1_n_n none (maximumf (addf (Host.dotGeneral dot_S1600000x64_S64x128_S1600000x128_1_0_0_1_n_n none (Host.gather gather_S100000x64_S1600000x1_S1600000x64_1_0_n_n_0_1_164 A0 (broadcastInDim S1600000x1 ![0] bcast_S1600000_S1600000x1_0 (select (cmpi .slt (shapeCast _ (extractStridedSlice S1x1600000 ![0, 0] E slices_S2x1600000_S1x1600000_0_0) shapeCasts_S1x1600000_S1600000) (broadcastInDim S1600000 ![] bcast_S_S1600000 (constantI S_ 32 0#32))) (addi (shapeCast _ (extractStridedSlice S1x1600000 ![0, 0] E slices_S2x1600000_S1x1600000_0_0) shapeCasts_S1x1600000_S1600000) (broadcastInDim S1600000 ![] bcast_S_S1600000 (constantI S_ 32 100000#32))) (shapeCast _ (extractStridedSlice S1x1600000 ![0, 0] E slices_S2x1600000_S1x1600000_0_0) shapeCasts_S1x1600000_S1600000)))) A2) (broadcastInDim S1600000x128 ![0, 1] bcast_S1x128_S1600000x128_0_1 (broadcastInDim S1x128 ![1] bcast_S128_S1x128_1 A3))) (broadcastInDim S1600000x128 ![] bcast_S_S1600000x128 (constant S_ .f32 0x00000000#32))) A4) (broadcastInDim S1600000x128 ![0, 1] bcast_S1x128_S1600000x128_0_1 (broadcastInDim S1x128 ![1] bcast_S128_S1x128_1 A5))) (broadcastInDim S1600000x128 ![] bcast_S_S1600000x128 (constant S_ .f32 0x00000000#32))) A6) (broadcastInDim S1600000x64 ![0, 1] bcast_S1x64_S1600000x64_0_1 (broadcastInDim S1x64 ![1] bcast_S64_S1x64_1 A7))))
      = Cert.KernelIdeal.HostStretch.aggregate E (Cert.KernelIdeal.HostStretch.gathered E (Cert.KernelIdeal.KernelValue.nodeOut A0 A2 A3 A4 A5 A6 A7)) := by
  rw [msgs_eq A0 E A2 A3 A4 A5 A6 A7]
  rfl

/-- The reference's result term is the kernel program's result function of the same fourteen arrays. -/
theorem ref_eq_kernel (A0 : FVec Ideal S100000x64 .f32) (E : IVec S2x1600000 32) (A2 : FVec Ideal S64x128 .f32) (A3 : FVec Ideal S128 .f32)
    (A4 : FVec Ideal S128x128 .f32) (A5 : FVec Ideal S128 .f32) (A6 : FVec Ideal S128x64 .f32) (A7 : FVec Ideal S64 .f32)
    (A8 : FVec Ideal S128x128 .f32) (A9 : FVec Ideal S128 .f32) (A10 : FVec Ideal S128x128 .f32) (A11 : FVec Ideal S128 .f32)
    (A12 : FVec Ideal S128x64 .f32) (A13 : FVec Ideal S64 .f32) :
    addf (Host.dotGeneral dot_S100000x128_S128x64_S100000x64_1_0_0_1_n_n none (maximumf (addf (Host.dotGeneral dot_S100000x128_S128x128_S100000x128_1_0_0_1_n_n none (maximumf (addf (Host.dotGeneral dot_S100000x128_S128x128_S100000x128_1_0_0_1_n_n none (concatenate S100000x128 1 [⟨S100000x64, A0⟩, ⟨S100000x64, (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] E slices_S2x1600000_S1x1600000_1_0) shapeCasts_S1x1600000_S1600000)) (addf (Host.dotGeneral dot_S1600000x128_S128x64_S1600000x64_1_0_0_1_n_n none (maximumf (addf (Host.dotGeneral dot_S1600000x128_S128x128_S1600000x128_1_0_0_1_n_n none (maximumf (addf (Host.dotGeneral dot_S1600000x64_S64x128_S1600000x128_1_0_0_1_n_n none (Host.gather gather_S100000x64_S1600000x1_S1600000x64_1_0_n_n_0_1_164 A0 (broadcastInDim S1600000x1 ![0] bcast_S1600000_S1600000x1_0 (select (cmpi .slt (shapeCast _ (extractStridedSlice S1x1600000 ![0, 0] E slices_S2x1600000_S1x1600000_0_0) shapeCasts_S1x1600000_S1600000) (broadcastInDim S1600000 ![] bcast_S_S1600000 (constantI S_ 32 0#32))) (addi (shapeCast _ (extractStridedSlice S1x1600000 ![0, 0] E slices_S2x1600000_S1x1600000_0_0) shapeCasts_S1x1600000_S1600000) (broadcastInDim S1600000 ![] bcast_S_S1600000 (constantI S_ 32 100000#32))) (shapeCast _ (extractStridedSlice S1x1600000 ![0, 0] E slices_S2x1600000_S1x1600000_0_0) shapeCasts_S1x1600000_S1600000)))) A2) (broadcastInDim S1600000x128 ![0, 1] bcast_S1x128_S1600000x128_0_1 (broadcastInDim S1x128 ![1] bcast_S128_S1x128_1 A3))) (broadcastInDim S1600000x128 ![] bcast_S_S1600000x128 (constant S_ .f32 0x00000000#32))) A4) (broadcastInDim S1600000x128 ![0, 1] bcast_S1x128_S1600000x128_0_1 (broadcastInDim S1x128 ![1] bcast_S128_S1x128_1 A5))) (broadcastInDim S1600000x128 ![] bcast_S_S1600000x128 (constant S_ .f32 0x00000000#32))) A6) (broadcastInDim S1600000x64 ![0, 1] bcast_S1x64_S1600000x64_0_1 (broadcastInDim S1x64 ![1] bcast_S64_S1x64_1 A7))))⟩] concatenates_S100000x64_S100000x64_S100000x128_d1) A8) (broadcastInDim S100000x128 ![0, 1] bcast_S1x128_S100000x128_0_1 (broadcastInDim S1x128 ![1] bcast_S128_S1x128_1 A9))) (broadcastInDim S100000x128 ![] bcast_S_S100000x128 (constant S_ .f32 0x00000000#32))) A10) (broadcastInDim S100000x128 ![0, 1] bcast_S1x128_S100000x128_0_1 (broadcastInDim S1x128 ![1] bcast_S128_S1x128_1 A11))) (broadcastInDim S100000x128 ![] bcast_S_S100000x128 (constant S_ .f32 0x00000000#32))) A12) (broadcastInDim S100000x64 ![0, 1] bcast_S1x64_S100000x64_0_1 (broadcastInDim S1x64 ![1] bcast_S64_S1x64_1 A13))
      = Cert.KernelIdeal.KernelValue.result A0 E A2 A3 A4 A5 A6 A7 A8 A9 A10 A11 A12 A13 := by
  rw [agg_eq A0 E A2 A3 A4 A5 A6 A7]
  funext i
  obtain ⟨r, q, rfl⟩ : ∃ (r : Fin 100000) (q : Fin 64), i = ix2 r q := ⟨i 0, i 1, eq_ix2 i⟩
  rw [Cert.KernelIdeal.KernelValue.result_apply]
  exact ref_out_apply A0 _ A8 A9 A10 A11 A12 A13 r q

end Cert.Proof.Bridge

end
-- ==== Proof.lean ====
/-
  The certificate of the message-passing layer: a Pallas program of two pipelined regions (the message perceptron on the
  node rows; the update perceptron on "node features beside aggregated messages") around a host gather and scatter-add,
  against the plain reference that gathers first and runs the message perceptron per edge.
  * The three frames: the two kernel programs' are the generated frame certificates (each region of class A); the
    reference has no kernel, and its frame is its generated run with the result dropped.
  * The idealization rewrote no operation, so there is nothing to preserve.
  * The two idealized programs, run from memories agreeing on the fourteen arguments, end with equal results: the kernel
    program's result is one function of the launch arrays (Proof/KernelValue.lean: the run, the two regions' values, the
    host operations around them), the reference's result is its generated run's term, and the two are the same function
    (Proof/Bridge.lean: a perceptron acts row by row, so it commutes with the gather of rows).
-/
import proofs.«107831_j33019708572043_2_alg».proof.Defs
import proofs.«107831_j33019708572043_2_alg».proof.Proof.Gen.Kernel
import proofs.«107831_j33019708572043_2_alg».proof.Proof.Gen.Kernel.Skeleton
import proofs.«107831_j33019708572043_2_alg».proof.Proof.Gen.Kernel.Launch
import proofs.«107831_j33019708572043_2_alg».proof.Proof.Gen.Kernel.Points
import proofs.«107831_j33019708572043_2_alg».proof.Proof.Gen.Kernel.Frame
import proofs.«107831_j33019708572043_2_alg».proof.Proof.Gen.KernelIdeal
import proofs.«107831_j33019708572043_2_alg».proof.Proof.Gen.KernelIdeal.Skeleton
import proofs.«107831_j33019708572043_2_alg».proof.Proof.Gen.KernelIdeal.Launch
import proofs.«107831_j33019708572043_2_alg».proof.Proof.Gen.KernelIdeal.Points
import proofs.«107831_j33019708572043_2_alg».proof.Proof.Gen.KernelIdeal.Frame
import proofs.«107831_j33019708572043_2_alg».proof.Proof.Gen.ReferenceIdeal
import proofs.«107831_j33019708572043_2_alg».proof.Proof.Gen.ReferenceIdeal.Run
import proofs.«107831_j33019708572043_2_alg».proof.Proof.Gen.Pre_finite_inputs
import proofs.«107831_j33019708572043_2_alg».proof.Proof.KernelValue
import proofs.«107831_j33019708572043_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the result array at one function of the launch arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [h0, h1, h2, h3, h4, h5, h6, h7, h8, h9, h10, h11, h12, h13]
  exact Cert.Proof.Bridge.ref_eq_kernel _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
